-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S512x128 : Shape := ⟨2, ![512, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x2 .f32) (main_arg12 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S512x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S512x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S512x128 : Shape := ⟨2, ![512, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S650000x256 : Shape := ⟨2, ![650000, 256]⟩
abbrev S1x128 : Shape := ⟨2, ![1, 128]⟩
abbrev S512 : Shape := ⟨1, ![512]⟩
abbrev S50000x1 : Shape := ⟨2, ![50000, 1]⟩
abbrev S512x1 : Shape := ⟨2, ![512, 1]⟩
abbrev S1x2 : Shape := ⟨2, ![1, 2]⟩
abbrev S512x2 : Shape := ⟨2, ![512, 2]⟩

abbrev nBuf : Space → Nat
  | .hbm => 102
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S50000, .i32⟩
  | .hbm, ⟨18, _⟩ => ⟨S650000, .i32⟩
  | .hbm, ⟨19, _⟩ => ⟨S650000, .i32⟩
  | .hbm, ⟨20, _⟩ => ⟨S_, .f32⟩
  | .hbm, ⟨21, _⟩ => ⟨S650000, .f32⟩
  | .hbm, ⟨22, _⟩ => ⟨S_, .f32⟩
  | .hbm, ⟨23, _⟩ => ⟨S50000, .f32⟩
  | .hbm, ⟨24, _⟩ => ⟨S650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S650000, .f32⟩
  | .hbm, ⟨55, _⟩ => ⟨S650000, .f32⟩
  | .hbm, ⟨56, _⟩ => ⟨S128x256, .f32⟩
  | .hbm, ⟨57, _⟩ => ⟨S50000x256, .f32⟩
  | .hbm, ⟨58, _⟩ => ⟨S_, .i32⟩
  | .hbm, ⟨59, _⟩ => ⟨S650000, .i32⟩
  | .hbm, ⟨60, _⟩ => ⟨S650000, .i1⟩
  | .hbm, ⟨61, _⟩ => ⟨S_, .i32⟩
  | .hbm, ⟨62, _⟩ => ⟨S650000, .i32⟩
  | .hbm, ⟨63, _⟩ => ⟨S650000, .i32⟩
  | .hbm, ⟨64, _⟩ => ⟨S650000, .i32⟩
  | .hbm, ⟨65, _⟩ => ⟨S650000x1, .i32⟩
  | .hbm, ⟨66, _⟩ => ⟨S650000x256, .f32⟩
  | .hbm, ⟨67, _⟩ => ⟨S650000x1, .f32⟩
  | .hbm, ⟨68, _⟩ => ⟨S650000x256, .f32⟩
  | .hbm, ⟨69, _⟩ => ⟨S650000x256, .f32⟩
  | .hbm, ⟨70, _⟩ => ⟨S_, .f32⟩
  | .hbm, ⟨71, _⟩ => ⟨S50000x256, .f32⟩
  | .hbm, ⟨72, _⟩ => ⟨S650000x1, .i32⟩
  | .hbm, ⟨73, _⟩ => ⟨S50000x256, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S1x128, .f32⟩
  | .hbm, ⟨87, _⟩ => ⟨S50000x128, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S512, .f32⟩
  | .hbm, ⟨92, _⟩ => ⟨S50000x1, .i32⟩
  | .hbm, ⟨93, _⟩ => ⟨S512, .f32⟩
  | .hbm, ⟨94, _⟩ => ⟨S_, .f32⟩
  | .hbm, ⟨95, _⟩ => ⟨S512x128, .f32⟩
  | .hbm, ⟨96, _⟩ => ⟨S50000x1, .i32⟩
  | .hbm, ⟨97, _⟩ => ⟨S512x128, .f32⟩
  | .hbm, ⟨98, _⟩ => ⟨S512x1, .f32⟩
  | .hbm, ⟨99, _⟩ => ⟨S1x128, .f32⟩
  | .hbm, ⟨100, _⟩ => ⟨S1x2, .f32⟩
  | .hbm, ⟨101, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S512x128, .f32⟩
  | .local _ .vmem, ⟨17, _⟩ => ⟨S512x1, .f32⟩
  | .local _ .vmem, ⟨18, _⟩ => ⟨S128x128, .f32⟩
  | .local _ .vmem, ⟨19, _⟩ => ⟨S1x128, .f32⟩
  | .local _ .vmem, ⟨20, _⟩ => ⟨S128x2, .f32⟩
  | .local _ .vmem, ⟨21, _⟩ => ⟨S1x2, .f32⟩
  | .local _ .vmem, ⟨22, _⟩ => ⟨S512x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  slices_S50000x256_S50000x128_0_0 : S50000x256.Slices ![0, 0] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S50000x256_S50000x128_0_128 : S50000x256.Slices ![0, 128] S50000x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  shapeCasts_S128_S1x128 : S128.ShapeCasts S1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  shapeCasts_S512_S512x1 : S512.ShapeCasts S512x1
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  broadcasts_S1x128_S512x128 : S1x128.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x256_S5000x256_1_0_0_1_n_n_wf : DotDims.WF S5000x128 S128x256 S5000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S5000x128_S128x128_S5000x128_1_0_0_1_n_n_wf : DotDims.WF S5000x128 S128x128 S5000x128 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S512x1.size a
  hwx2_1 : ∀ i : grid2.Coords, EltTy.bits .f32 = 32 ∨ (Rect.block (s := S512x1) S512x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x2.size a ≤ S512x2.size a
  hwx2_6 : ∀ i : grid2.Coords, EltTy.bits .f32 = 32 ∨ (Rect.block (s := S512x2) S512x2.size (cc2_transform_6 i) (hinb2_6 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v67) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v68) S512x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S512x2.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S512x128 : Shape := ⟨2, ![512, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x512 : Shape := ⟨2, ![50000, 512]⟩
abbrev S512 : Shape := ⟨1, ![512]⟩
abbrev S50000x1 : Shape := ⟨2, ![50000, 1]⟩
abbrev S512x1 : Shape := ⟨2, ![512, 1]⟩
abbrev S512x2 : Shape := ⟨2, ![512, 2]⟩
abbrev S1x2 : Shape := ⟨2, ![1, 2]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S512x128, .f32⟩
  | 8 => ⟨S128, .f32⟩
  | 9 => ⟨S128x128, .f32⟩
  | 10 => ⟨S128, .f32⟩
  | 11 => ⟨S128x2, .f32⟩
  | 12 => ⟨S2, .f32⟩
  | 13 => ⟨S1x600000, .i32⟩
  | 14 => ⟨S600000, .i32⟩
  | 15 => ⟨S1x600000, .i32⟩
  | 16 => ⟨S600000, .i32⟩
  | 17 => ⟨S50000, .i32⟩
  | 18 => ⟨S650000, .i32⟩
  | 19 => ⟨S650000, .i32⟩
  | 20 => ⟨S_, .f32⟩
  | 21 => ⟨S650000, .f32⟩
  | 22 => ⟨S_, .f32⟩
  | 23 => ⟨S50000, .f32⟩
  | 24 => ⟨S650000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S50000x128, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x1, .f32⟩
  | 67 => ⟨S650000x128, .f32⟩
  | 68 => ⟨S650000x128, .f32⟩
  | 69 => ⟨S_, .f32⟩
  | 70 => ⟨S50000x128, .f32⟩
  | 71 => ⟨S650000x1, .i32⟩
  | 72 => ⟨S50000x128, .f32⟩
  | 73 => ⟨S1x128, .f32⟩
  | 74 => ⟨S50000x128, .f32⟩
  | 75 => ⟨S50000x128, .f32⟩
  | 76 => ⟨S50000, .i32⟩
  | 77 => ⟨S650000, .i32⟩
  | 78 => ⟨S650000, .i32⟩
  | 79 => ⟨S_, .f32⟩
  | 80 => ⟨S650000, .f32⟩
  | 81 => ⟨S_, .f32⟩
  | 82 => ⟨S50000, .f32⟩
  | 83 => ⟨S650000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S650000, .i32⟩
  | 98 => ⟨S650000, .i1⟩
  | 99 => ⟨S_, .i32⟩
  | 100 => ⟨S650000, .i32⟩
  | 101 => ⟨S650000, .i32⟩
  | 102 => ⟨S650000, .i32⟩
  | 103 => ⟨S650000x1, .i32⟩
  | 104 => ⟨S650000, .f32⟩
  | 105 => ⟨S_, .i32⟩
  | 106 => ⟨S650000, .i32⟩
  | 107 => ⟨S650000, .i1⟩
  | 108 => ⟨S_, .i32⟩
  | 109 => ⟨S650000, .i32⟩
  | 110 => ⟨S650000, .i32⟩
  | 111 => ⟨S650000, .i32⟩
  | 112 => ⟨S650000x1, .i32⟩
  | 113 => ⟨S650000, .f32⟩
  | 114 => ⟨S650000, .f32⟩
  | 115 => ⟨S50000x128, .f32⟩
  | 116 => ⟨S_, .i32⟩
  | 117 => ⟨S650000, .i32⟩
  | 118 => ⟨S650000, .i1⟩
  | 119 => ⟨S_, .i32⟩
  | 120 => ⟨S650000, .i32⟩
  | 121 => ⟨S650000, .i32⟩
  | 122 => ⟨S650000, .i32⟩
  | 123 => ⟨S650000x1, .i32⟩
  | 124 => ⟨S650000x128, .f32⟩
  | 125 => ⟨S650000x1, .f32⟩
  | 126 => ⟨S650000x128, .f32⟩
  | 127 => ⟨S650000x128, .f32⟩
  | _ => ⟨S50000x128, .f32⟩

abbrev hbmTy0_1 (i : Nat) : BufTy := match i % 128 with
  | 0 => ⟨S_, .f32⟩
  | 1 => ⟨S50000x128, .f32⟩
  | 2 => ⟨S650000x1, .i32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S50000x512, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000, .f32⟩
  | 16 => ⟨S_, .f32⟩
  | 17 => ⟨S512, .f32⟩
  | 18 => ⟨S50000x1, .i32⟩
  | 19 => ⟨S512, .f32⟩
  | 20 => ⟨S_, .f32⟩
  | 21 => ⟨S512x128, .f32⟩
  | 22 => ⟨S50000x1, .i32⟩
  | 23 => ⟨S512x128, .f32⟩
  | 24 => ⟨S_, .f32⟩
  | 25 => ⟨S512, .f32⟩
  | 26 => ⟨S512, .f32⟩
  | 27 => ⟨S512x1, .f32⟩
  | 28 => ⟨S512x128, .f32⟩
  | 29 => ⟨S512x128, .f32⟩
  | 30 => ⟨S512x128, .f32⟩
  | 31 => ⟨S1x128, .f32⟩
  | 32 => ⟨S512x128, .f32⟩
  | 33 => ⟨S512x128, .f32⟩
  | 34 => ⟨S_, .f32⟩
  | 35 => ⟨S512x128, .f32⟩
  | 36 => ⟨S512x128, .f32⟩
  | 37 => ⟨S512x2, .f32⟩
  | 38 => ⟨S1x2, .f32⟩
  | 39 => ⟨S512x2, .f32⟩
  | 40 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_call1_v0 : Ref sig .tc := ⟨.hbm, 93, rfl⟩
abbrev main_call1_v1 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_17 : Ref sig .tc := ⟨.hbm, 105, rfl⟩
abbrev main_v69 : Ref sig .tc := ⟨.hbm, 106, rfl⟩
abbrev main_v70 : Ref sig .tc := ⟨.hbm, 107, rfl⟩
abbrev main_c_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_19 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_21 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_22 : Ref sig .tc := ⟨.hbm, 142, rfl⟩
abbrev main_v101 : Ref sig .tc := ⟨.hbm, 143, rfl⟩
abbrev main_cst_23 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_24 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_25 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call2_cst : Ref sig .tc := ⟨.hbm, 162, rfl⟩
abbrev main_call2_v0 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x128_S50000x512_d1 : Shape.Concatenates [S50000x128, S50000x128, S50000x128, S50000x128] S50000x512 1
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x512_S512x128_S50000x128_1_0_0_1_n_n_wf : DotDims.WF S50000x512 S512x128 S50000x128 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  The idealized kernel program's run, with its RESULT in the post: every weakly fair execution of @main terminates,
  nothing faulting, the result buffer holding what the last of the three regions' write-backs leave at it (the
  contents named `Gen.W8`: the launch memory carried through the host stretches and the three regions), and the
  argument arrays as launched. It is the launch of @main's eight segments — three stretches of host operations, a
  region, a stretch, a region, a stretch, a region — read at the last boundary's contents for one more buffer than
  the frame reads.
-/
import proofs.«176967_j76450417868973_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault; the result
    buffer ends at the last boundary's contents and every argument array as launched. -/
theorem run_result : θ_run defs (onTc (τ := τ) (main (F := F))) ⟨m, fun _ => 0, ρ⟩ (fun r => ∀ c : Dev nD,
      r.2.mem ((c.tc : Thread nD τ).loc main_v71) = W8 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v71 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Result

end
-- ==== Proof.Spec.lean ====
/-
  The value every stage of the network computes on the extended reals, written once as plain functions of whole
  arrays, index by index. Both programs are compared against these.

  The network: two graph convolutions of the node features (a linear map, a gather along the edges scaled by the
  symmetric degree normalisation, a sum into the edges' targets, a bias), a fusion layer
  `[x_s, x_d, x_s * x_d, x_s - x_d] · W_f + b_f`, a mean over each graph's nodes and a two-layer head.
  The dense stages are below: `proj` (the linear map against the two convolutions' weights side by side), `fuse`
  (the fusion layer with its 512-term contraction cut into the four 128-term contractions of the four pieces) and
  `head` (divide the pooled sums by the node counts, at least one; a linear layer, a rectifier, a linear layer).
-/
import Idealize.ShloMosaic.PureOps.Ideal
import Idealize.ShloMosaic.Lib.ValueIdx

noncomputable section

open scoped BigOperators

namespace Cert.Spec

open Idealize.ShloMosaic Idealize.ShloMosaic.ValueIdx

/-- An array of extended reals with `r` rows and `c` columns. -/
abbrev Mat (r c : Nat) : Type := (⟨2, ![r, c]⟩ : Shape).Idx → EReal

/-- The word of the float `1.0`, read as an extended real. -/
abbrev one : EReal := Ideal.ofBits .f32 0x3F800000#32
/-- The word of the float `0.0`, read as an extended real. -/
abbrev zero : EReal := Ideal.ofBits .f32 0x00000000#32

/-- Row `p` of `a` against column `q` of `b`: the sum over the shared axis of the products. -/
def dot {M K N : Nat} (a : Mat M K) (b : Mat K N) (p : Fin M) (q : Fin N) : EReal :=
  ∑ k : Fin K, a (ix2 p k) * b (ix2 k q)

/-- The node features against a weight matrix of 256 columns (the two convolutions' weights side by side). -/
def proj (x : Mat 50000 128) (w : Mat 128 256) : Mat 50000 256 :=
  fun i => dot x w (i 0) (i 1)

/-- The fusion layer: `x_s · w0 + x_d · w1 + (x_s * x_d) · w2 + (x_s - x_d) · w3 + b`, the four products summed
    in this order and the bias row added last. -/
def fuse (xs xd : Mat 50000 128) (w0 w1 w2 w3 : Mat 128 128) (b : Mat 1 128) : Mat 50000 128 :=
  fun i =>
    (((dot xs w0 (i 0) (i 1) + dot xd w1 (i 0) (i 1))
        + ∑ k : Fin 128, (xs (ix2 (i 0) k) * xd (ix2 (i 0) k)) * w2 (ix2 k (i 1)))
      + ∑ k : Fin 128, (xs (ix2 (i 0) k) - xd (ix2 (i 0) k)) * w3 (ix2 k (i 1)))
    + b (ix2 0 (i 1))

/-- The head's hidden layer: each graph's pooled sum divided by its node count (at least one), a linear layer with
    its bias row, and the rectifier `max · 0`. -/
def hidden (p : Mat 512 128) (cnt : Mat 512 1) (w1 : Mat 128 128) (b1 : Mat 1 128) : Mat 512 128 :=
  fun i =>
    max ((∑ l : Fin 128, Ideal.div (p (ix2 (i 0) l)) (max (cnt (ix2 (i 0) 0)) one) * w1 (ix2 l (i 1)))
      + b1 (ix2 0 (i 1))) zero

/-- The head: the hidden layer against the output weights, plus the output bias row. -/
def head (p : Mat 512 128) (cnt : Mat 512 1) (w1 : Mat 128 128) (b1 : Mat 1 128) (w2 : Mat 128 2) (b2 : Mat 1 2) :
    Mat 512 2 :=
  fun i => dot (hidden p cnt w1 b1) w2 (i 0) (i 1) + b2 (ix2 0 (i 1))

end Cert.Spec

end
-- ==== Proof.Region0.lean ====
/-
  The projection region, read as a value: ten grid points, point `t` takes rows `5000 t … 5000 t + 4999` of the
  feature array and the whole weight array and writes the same rows of the output. The body is one matrix product
  into a zero accumulator: on extended reals the plain sum of products over the shared axis, a change of float format
  being the identity. The ten row blocks tile the output array (row `r` belongs to point `r / 5000`), so after the
  last point the array is the specification's `proj` of the two input arrays as the region finds them.
-/
import proofs.«176967_j76450417868973_1_alg».proof.Proof.Gen.KernelIdeal.Frame
import proofs.«176967_j76450417868973_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

/-! The index functions of the product `S5000x128 · S128x256`: a result element at row `p`, column `q` meets the left
    factor at row `p` and the right factor at column `q`, both at the contracted position. -/
theorem matmul_proj_apply_l0 (i : S5000x256.Idx) (c : dot_S5000x128_S128x256_S5000x256_1_0_0_1_n_n.contr.Idx) :
    (dot_S5000x128_S128x256_S5000x256_1_0_0_1_n_n.lhsIdx i c 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem matmul_proj_apply_l1 (i : S5000x256.Idx) (c : dot_S5000x128_S128x256_S5000x256_1_0_0_1_n_n.contr.Idx) :
    (dot_S5000x128_S128x256_S5000x256_1_0_0_1_n_n.lhsIdx i c 1).val = (c ⟨0, by decide⟩).val :=
  dot_S5000x128_S128x256_S5000x256_1_0_0_1_n_n.lhsIdx_val_of_single rfl i c
theorem matmul_proj_apply_r0 (i : S5000x256.Idx) (c : dot_S5000x128_S128x256_S5000x256_1_0_0_1_n_n.contr.Idx) :
    (dot_S5000x128_S128x256_S5000x256_1_0_0_1_n_n.rhsIdx i c 0).val = (c ⟨0, by decide⟩).val :=
  dot_S5000x128_S128x256_S5000x256_1_0_0_1_n_n.rhsIdx_val_of_single rfl i c
theorem matmul_proj_apply_r1 (i : S5000x256.Idx) (c : dot_S5000x128_S128x256_S5000x256_1_0_0_1_n_n.contr.Idx) :
    (dot_S5000x128_S128x256_S5000x256_1_0_0_1_n_n.rhsIdx i c 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The matrix product into a zero accumulator, read at row `p` and column `q`: the sum over the shared axis of
    the products of row `p` of the left factor and column `q` of the right one. -/
theorem matmul_proj_apply (a : FVec Ideal S5000x128 .bf16) (b : FVec Ideal S128x256 .bf16) (p : Fin 5000) (q : Fin 256) :
    matmul dot_S5000x128_S128x256_S5000x256_1_0_0_1_n_n none a b (constant S5000x256 .f32 0x00000000#32) (ix2 p q)
      = ∑ k : Fin 128, a (ix2 p k) * b (ix2 k q) := by
  refine (Ideal.matmul_constant_zero_apply dot_S5000x128_S128x256_S5000x256_1_0_0_1_n_n none a b (ix2 p q)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k :=
    funext fun d => Fin.ext (by
      match d with
      | ⟨0, _⟩ => exact matmul_proj_apply_l0 _ _
      | ⟨1, _⟩ => exact (matmul_proj_apply_l1 _ _).trans hk)
  have er : dot_S5000x128_S128x256_S5000x256_1_0_0_1_n_n.rhsIdx (ix2 p q) ((contrEquiv1 dot_S5000x128_S128x256_S5000x256_1_0_0_1_n_n 128 rfl rfl).symm k) = ix2 k q :=
    funext fun d => Fin.ext (by
      match d with
      | ⟨0, _⟩ => exact (matmul_proj_apply_r0 _ _).trans hk
      | ⟨1, _⟩ => exact matmul_proj_apply_r1 _ _)
  rw [el, er]

/-- The body's result at row `p` of the block and column `q`, over any two loaded blocks: row `p` of the feature
    block against column `q` of the weights. A change of float format is the identity on extended reals. -/
theorem proj_block_apply (v0 : Vec Ideal S5000x128 .f32) (v2 : Vec Ideal S128x256 .f32) (p : Fin 5000) (q : Fin 256) :
    k0_pay1 v0 v2 (ix2 p q) = ∑ k : Fin 128, v0 (ix2 p k) * v2 (ix2 k q) := by
  unfold k0_pay1
  simp only [shapeCast_self]
  exact matmul_proj_apply _ _ p q

theorem hz0 : (![0, 0] : Fin 2 → Nat) = fun _ => 0 := funext fun a => by fin_cases a <;> rfl

/-- The printed index maps over the ten grid points: the feature window and the output window sit at row block `t`,
    the weight window is its whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Rows `5000 t … 5000 t + 4999` of the 50000-row feature array, as a block of 5000 rows. -/
def rowBlock0 (x : S50000x128.Idx → EReal) (t : Nat) (ht : t < 10) : Vec Ideal S5000x128 .f32 :=
  fun y => x (ix2 (⟨t * 5000 + (y 0).val, by have h : (y 0).val < 5000 := (y 0).isLt; omega⟩ : Fin 50000)
    (⟨(y 1).val, (y 1).isLt⟩ : Fin 128))

/-- The body's result on row block `t` of the feature array is the specification's product on rows `5000 t …`. -/
theorem proj_rows_apply (x : S50000x128.Idx → EReal) (w : S128x256.Idx → EReal) (t : Nat) (ht : t < 10)
    (p : Fin 5000) (q : Fin 256) :
    k0_pay1 (rowBlock0 x t ht) w (ix2 p q) = Cert.Spec.proj x w (ix2 (⟨t * 5000 + p.val, by omega⟩ : Fin 50000) q) :=
  (proj_block_apply (rowBlock0 x t ht) w p q).trans rfl

/-- The feature window's block at point `t` is row block `t` of the feature array. -/
theorem blk0_0 (V : (c : Dev nD) → (b : Ref sig .tc) → Buf (Elt Ideal) ((c : Thread nD τ).loc b)) (c : Dev nD) (t : Fin cfg0.N) :
    (iblk0 V c 0 t : Vec Ideal S5000x128 .f32) = rowBlock0 (V c main_arg0) t.val (lt_of_lt_of_eq t.isLt N_0) := by
  funext y
  unfold iblk0 rowBlock0
  rw [View.read_apply]
  show V c main_arg0 _ = V c main_arg0 _
  congr 1
  funext a
  apply Fin.ext
  match a with
  | ⟨0, _⟩ => show win0_0.index t 0 * 5000 + 1 * (y 0).val = t.val * 5000 + (y 0).val; rw [(idx_facts0 t).1]; omega
  | ⟨1, _⟩ => show win0_0.index t 1 * 128 + 1 * (y 1).val = (y 1).val; rw [(idx_facts0 t).2.1]; omega

/-- The weight window is its whole array: its block, read off the array, is the array. -/
theorem blk0_1 (V : (c : Dev nD) → (b : Ref sig .tc) → Buf (Elt Ideal) ((c : Thread nD τ).loc b)) (c : Dev nD) (t : Fin cfg0.N) :
    (iblk0 V c 1 t : Vec Ideal S128x256 .f32) = (V c main_v32 : S128x256.Idx → EReal) := by
  funext y
  unfold iblk0
  rw [View.read_apply]
  show V c main_v32 _ = V c main_v32 _
  congr 1
  funext a
  apply Fin.ext
  match a with
  | ⟨0, _⟩ => show win0_1.index t 0 * 128 + 1 * (y 0).val = (y 0).val; rw [(idx_facts0 t).2.2.1]; omega
  | ⟨1, _⟩ => show win0_1.index t 1 * 256 + 1 * (y 1).val = (y 1).val; rw [(idx_facts0 t).2.2.2.1]; omega

/-- What point `t` writes back is block `t` of the specification's product of the two input arrays. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.proj (V c main_arg0) (V c main_v32)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x256) hz0]
  rw [blk0_0 V c t, blk0_1 V c t]
  funext j
  have ht : t.val < 10 := lt_of_lt_of_eq t.isLt N_0
  have hj0 : (j 0).val < 5000 := (j 0).isLt
  have hj1 : (j 1).val < 256 := (j 1).isLt
  have e1 : (cfg0.win 2).xinj (grid0.coords t) j = ix2 (⟨(j 0).val, hj0⟩ : Fin 5000) (⟨(j 1).val, hj1⟩ : Fin 256) :=
    funext fun a => Fin.ext (by match a with | ⟨0, _⟩ => rfl | ⟨1, _⟩ => rfl)
  have e2 : ((cfg0.win 2).blk t).view.emb j
      = ix2 (⟨t.val * 5000 + (j 0).val, by omega⟩ : Fin 50000) (⟨(j 1).val, hj1⟩ : Fin 256) :=
    funext fun a => Fin.ext (by
      match a with
      | ⟨0, _⟩ => show win0_2.index t 0 * 5000 + 1 * (j 0).val = t.val * 5000 + (j 0).val; rw [(idx_facts0 t).2.2.2.2.1]; omega
      | ⟨1, _⟩ => show win0_2.index t 1 * 256 + 1 * (j 1).val = (j 1).val; rw [(idx_facts0 t).2.2.2.2.2]; omega)
  show k0_pay1 (F := Ideal) _ _ ((cfg0.win 2).xinj (grid0.coords t) j) = Cert.Spec.proj _ _ (((cfg0.win 2).blk t).view.emb j)
  rw [e1, e2]
  exact proj_rows_apply (V c main_arg0) (V c main_v32) t.val ht ⟨(j 0).val, hj0⟩ ⟨(j 1).val, hj1⟩

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v33).slice (win0_2.rect t)).set ↔ _
  rw [View.set_slice_whole, Rect.mem_set_unit]
  exact Iff.rfl

/-- Row `r` of the output array is written by point `r / 5000`: the ten blocks tile the array. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e5]; omega

/-- The projection region's output array after its ten grid points is the specification's product of the feature
    array and the weight array as the region finds them. -/
theorem final0 (V : (c : Dev nD) → (b : Ref sig .tc) → Buf (Elt Ideal) ((c : Thread nD τ).loc b)) (c : Dev nD) :
    (dat0 (F := Ideal) V c).arrAt 2 cfg0.N = Cert.Spec.proj (V c main_arg0) (V c main_v32) :=
  (dat0 V c).arrAt_eq_of_cover 2 (Cert.Spec.proj (V c main_arg0) (V c main_v32)) (fun t _ => flushed0_eq V c t) cover0

end Cert.KernelIdeal.Regions

end
-- ==== Proof.Region1.lean ====
/-
  The fusion region, read as a value: ten grid points, point `t` takes rows `5000 t … 5000 t + 4999` of the two
  feature arrays, the four weight arrays and the bias row whole, and writes the same rows of the output. The body
  forms the pieces `x_s`, `x_d`, `x_s * x_d`, `x_s - x_d`, multiplies each against its weights into a zero
  accumulator, adds the four products in this order and then the bias row. On extended reals a change of float
  format is the identity and each product is the plain sum over the shared axis. The ten row blocks tile the output
  array (row `r` belongs to point `r / 5000`), so after the last point the array is the specification's `fuse` of
  the seven input arrays as the region finds them.
-/
import proofs.«176967_j76450417868973_1_alg».proof.Proof.Gen.KernelIdeal.Frame
import proofs.«176967_j76450417868973_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

/-! The index functions of the product `S5000x128 · S128x128`: a result element at row `p`, column `q` meets the left
    factor at row `p` and the right factor at column `q`, both at the contracted position. -/
theorem matmul_fuse_apply_l0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmul_fuse_apply_l1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem matmul_fuse_apply_r0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem matmul_fuse_apply_r1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, read at row `p` and column `q`: the sum over the shared axis of
    the products of row `p` of the left factor and column `q` of the right one. -/
theorem matmul_fuse_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun d => Fin.ext (by
      match d with
      | ⟨0, _⟩ => exact matmul_fuse_apply_l0 _ _
      | ⟨1, _⟩ => exact (matmul_fuse_apply_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun d => Fin.ext (by
      match d with
      | ⟨0, _⟩ => exact (matmul_fuse_apply_r0 _ _).trans hk
      | ⟨1, _⟩ => exact matmul_fuse_apply_r1 _ _)
  rw [el, er]

/-- A bias row of 128, broadcast down the 5000 rows of a block, read at column `q`: the row's entry at `q`. -/
theorem bcast_bias_apply {α : Type} (x : S1x128.Idx → α) (p : Fin 5000) (q : Fin 128) :
    broadcastTo S5000x128 x broadcasts_S1x128_S5000x128 (ix2 p q) = x (ix2 0 q) :=
  broadcastTo_apply x broadcasts_S1x128_S5000x128 (ix2 p q) (ix2 0 q) fun a => by
    match a with
    | ⟨0, _⟩ => show (0 : Fin 1).val = if (1 : Nat) = 1 then 0 else p.val; rw [if_pos rfl]; rfl
    | ⟨1, _⟩ => show q.val = if (128 : Nat) = 1 then 0 else q.val; rw [if_neg (by decide)]

/-- The body's result at row `p` of the block and column `q`, over any loaded blocks: the four products of the
    pieces `x_s`, `x_d`, `x_s * x_d`, `x_s - x_d` of row `p` against column `q` of their weights, summed in this
    order, plus the bias row's entry at `q`. A change of float format is the identity on extended reals. -/
theorem fuse_block_apply (v0 v2 : Vec Ideal S5000x128 .f32) (v10 v13 v16 v19 : Vec Ideal S128x128 .f32)
    (v29 : Vec Ideal S1x128 .f32) (p : Fin 5000) (q : Fin 128) :
    k1_pay1 v0 v2 v10 v13 v16 v19 v29 (ix2 p q)
      = ((((∑ k : Fin 128, v0 (ix2 p k) * v10 (ix2 k q)) + ∑ k : Fin 128, v2 (ix2 p k) * v13 (ix2 k q))
          + ∑ k : Fin 128, (v0 (ix2 p k) * v2 (ix2 p k)) * v16 (ix2 k q))
        + ∑ k : Fin 128, (v0 (ix2 p k) - v2 (ix2 p k)) * v19 (ix2 k q)) + v29 (ix2 0 q) := by
  unfold k1_pay1
  simp only [shapeCast_self]
  refine (addf_apply _ _ (ix2 p q)).trans (congrArg₂ (· + ·) ?_ (bcast_bias_apply v29 p q))
  refine (addf_apply _ _ (ix2 p q)).trans (congrArg₂ (· + ·) ?_ (matmul_fuse_apply _ _ p q))
  refine (addf_apply _ _ (ix2 p q)).trans (congrArg₂ (· + ·) ?_ (matmul_fuse_apply _ _ p q))
  exact (addf_apply _ _ (ix2 p q)).trans (congrArg₂ (· + ·) (matmul_fuse_apply _ _ p q) (matmul_fuse_apply _ _ p q))

/-- Rows `5000 t … 5000 t + 4999` of a 50000-row array, as a block of 5000 rows. -/
def rowBlock1 (x : S50000x128.Idx → EReal) (t : Nat) (ht : t < 10) : Vec Ideal S5000x128 .f32 :=
  fun y => x (ix2 (⟨t * 5000 + (y 0).val, by have h : (y 0).val < 5000 := (y 0).isLt; omega⟩ : Fin 50000)
    (⟨(y 1).val, (y 1).isLt⟩ : Fin 128))

/-- The body's result on row block `t` of the two feature arrays is the specification's fusion layer on rows
    `5000 t …` of the arrays. -/
theorem fuse_rows_apply (xs xd : S50000x128.Idx → EReal) (w0 w1 w2 w3 : S128x128.Idx → EReal) (b : S1x128.Idx → EReal)
    (t : Nat) (ht : t < 10) (p : Fin 5000) (q : Fin 128) :
    k1_pay1 (rowBlock1 xs t ht) (rowBlock1 xd t ht) w0 w1 w2 w3 b (ix2 p q)
      = Cert.Spec.fuse xs xd w0 w1 w2 w3 b (ix2 (⟨t * 5000 + p.val, by omega⟩ : Fin 50000) q) :=
  (fuse_block_apply (rowBlock1 xs t ht) (rowBlock1 xd t ht) w0 w1 w2 w3 b p q).trans rfl

theorem hz1 : (![0, 0] : Fin 2 → Nat) = fun _ => 0 := funext fun a => by fin_cases a <;> rfl

/-- The printed index maps over the ten grid points: the two feature windows and the output window sit at row
    block `t`, the four weight windows and the bias window are their whole arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Feature window 0's block at point `t` is row block `t` of its array. -/
theorem blk1_0 (V : (c : Dev nD) → (b : Ref sig .tc) → Buf (Elt Ideal) ((c : Thread nD τ).loc b)) (c : Dev nD) (t : Fin cfg1.N) :
    (iblk1 V c 0 t : Vec Ideal S5000x128 .f32) = rowBlock1 (V c main_v50) t.val (lt_of_lt_of_eq t.isLt N_1) := by
  funext y
  unfold iblk1 rowBlock1
  rw [View.read_apply]
  show V c main_v50 _ = V c main_v50 _
  congr 1
  funext a
  apply Fin.ext
  match a with
  | ⟨0, _⟩ => show win1_0.index t 0 * 5000 + 1 * (y 0).val = t.val * 5000 + (y 0).val; rw [(idx_facts1 t).1]; omega
  | ⟨1, _⟩ => show win1_0.index t 1 * 128 + 1 * (y 1).val = (y 1).val; rw [(idx_facts1 t).2.1]; omega

/-- Feature window 1's block at point `t` is row block `t` of its array. -/
theorem blk1_1 (V : (c : Dev nD) → (b : Ref sig .tc) → Buf (Elt Ideal) ((c : Thread nD τ).loc b)) (c : Dev nD) (t : Fin cfg1.N) :
    (iblk1 V c 1 t : Vec Ideal S5000x128 .f32) = rowBlock1 (V c main_v54) t.val (lt_of_lt_of_eq t.isLt N_1) := by
  funext y
  unfold iblk1 rowBlock1
  rw [View.read_apply]
  show V c main_v54 _ = V c main_v54 _
  congr 1
  funext a
  apply Fin.ext
  match a with
  | ⟨0, _⟩ => show win1_1.index t 0 * 5000 + 1 * (y 0).val = t.val * 5000 + (y 0).val; rw [(idx_facts1 t).2.2.1]; omega
  | ⟨1, _⟩ => show win1_1.index t 1 * 128 + 1 * (y 1).val = (y 1).val; rw [(idx_facts1 t).2.2.2.1]; omega

/-- Window 2 is its whole array: its block, read off the array, is the array. -/
theorem blk1_2 (V : (c : Dev nD) → (b : Ref sig .tc) → Buf (Elt Ideal) ((c : Thread nD τ).loc b)) (c : Dev nD) (t : Fin cfg1.N) :
    (iblk1 V c 2 t : Vec Ideal S128x128 .f32) = (V c main_v55 : S128x128.Idx → EReal) := by
  funext y
  unfold iblk1
  rw [View.read_apply]
  show V c main_v55 _ = V c main_v55 _
  congr 1
  funext a
  apply Fin.ext
  match a with
  | ⟨0, _⟩ => show win1_2.index t 0 * 128 + 1 * (y 0).val = (y 0).val; rw [(idx_facts1 t).2.2.2.2.1]; omega
  | ⟨1, _⟩ => show win1_2.index t 1 * 128 + 1 * (y 1).val = (y 1).val; rw [(idx_facts1 t).2.2.2.2.2.1]; omega

/-- Window 3 is its whole array: its block, read off the array, is the array. -/
theorem blk1_3 (V : (c : Dev nD) → (b : Ref sig .tc) → Buf (Elt Ideal) ((c : Thread nD τ).loc b)) (c : Dev nD) (t : Fin cfg1.N) :
    (iblk1 V c 3 t : Vec Ideal S128x128 .f32) = (V c main_v56 : S128x128.Idx → EReal) := by
  funext y
  unfold iblk1
  rw [View.read_apply]
  show V c main_v56 _ = V c main_v56 _
  congr 1
  funext a
  apply Fin.ext
  match a with
  | ⟨0, _⟩ => show win1_3.index t 0 * 128 + 1 * (y 0).val = (y 0).val; rw [(idx_facts1 t).2.2.2.2.2.2.1]; omega
  | ⟨1, _⟩ => show win1_3.index t 1 * 128 + 1 * (y 1).val = (y 1).val; rw [(idx_facts1 t).2.2.2.2.2.2.2.1]; omega

/-- Window 4 is its whole array: its block, read off the array, is the array. -/
theorem blk1_4 (V : (c : Dev nD) → (b : Ref sig .tc) → Buf (Elt Ideal) ((c : Thread nD τ).loc b)) (c : Dev nD) (t : Fin cfg1.N) :
    (iblk1 V c 4 t : Vec Ideal S128x128 .f32) = (V c main_v57 : S128x128.Idx → EReal) := by
  funext y
  unfold iblk1
  rw [View.read_apply]
  show V c main_v57 _ = V c main_v57 _
  congr 1
  funext a
  apply Fin.ext
  match a with
  | ⟨0, _⟩ => show win1_4.index t 0 * 128 + 1 * (y 0).val = (y 0).val; rw [(idx_facts1 t).2.2.2.2.2.2.2.2.1]; omega
  | ⟨1, _⟩ => show win1_4.index t 1 * 128 + 1 * (y 1).val = (y 1).val; rw [(idx_facts1 t).2.2.2.2.2.2.2.2.2.1]; omega

/-- Window 5 is its whole array: its block, read off the array, is the array. -/
theorem blk1_5 (V : (c : Dev nD) → (b : Ref sig .tc) → Buf (Elt Ideal) ((c : Thread nD τ).loc b)) (c : Dev nD) (t : Fin cfg1.N) :
    (iblk1 V c 5 t : Vec Ideal S128x128 .f32) = (V c main_v58 : S128x128.Idx → EReal) := by
  funext y
  unfold iblk1
  rw [View.read_apply]
  show V c main_v58 _ = V c main_v58 _
  congr 1
  funext a
  apply Fin.ext
  match a with
  | ⟨0, _⟩ => show win1_5.index t 0 * 128 + 1 * (y 0).val = (y 0).val; rw [(idx_facts1 t).2.2.2.2.2.2.2.2.2.2.1]; omega
  | ⟨1, _⟩ => show win1_5.index t 1 * 128 + 1 * (y 1).val = (y 1).val; rw [(idx_facts1 t).2.2.2.2.2.2.2.2.2.2.2.1]; omega

/-- Window 6 is its whole array: its block, read off the array, is the array. -/
theorem blk1_6 (V : (c : Dev nD) → (b : Ref sig .tc) → Buf (Elt Ideal) ((c : Thread nD τ).loc b)) (c : Dev nD) (t : Fin cfg1.N) :
    (iblk1 V c 6 t : Vec Ideal S1x128 .f32) = (V c main_v59 : S1x128.Idx → EReal) := by
  funext y
  unfold iblk1
  rw [View.read_apply]
  show V c main_v59 _ = V c main_v59 _
  congr 1
  funext a
  apply Fin.ext
  match a with
  | ⟨0, _⟩ => show win1_6.index t 0 * 1 + 1 * (y 0).val = (y 0).val; rw [(idx_facts1 t).2.2.2.2.2.2.2.2.2.2.2.2.1]; omega
  | ⟨1, _⟩ => show win1_6.index t 1 * 128 + 1 * (y 1).val = (y 1).val; rw [(idx_facts1 t).2.2.2.2.2.2.2.2.2.2.2.2.2.1]; omega

/-- What point `t` writes back is block `t` of the specification's fusion layer of the seven input arrays. -/
theorem flushed1_eq (V : (c : Dev nD) → (b : Ref sig .tc) → Buf (Elt Ideal) ((c : Thread nD τ).loc b)) (c : Dev nD) (t : Fin cfg1.N) :
    (dat1 (F := Ideal) V c).flushed 7 t
      = ((cfg1.win 7).blk t).view.read (Elt Ideal) (Cert.Spec.fuse (V c main_v50) (V c main_v54) (V c main_v55) (V c main_v56) (V c main_v57) (V c main_v58) (V c main_v59)) := by
  show (cfg1.win 7).cut (grid1.coords t) ((dat1 V c).after 7 t) = _
  rw [after1_7]
  unfold out1_7
  rw [View.canon_unit_zero hz1]
  simp only [View.ld_unit_zero (S := S5000x128) hz1, View.ld_unit_zero (S := S128x128) hz1, View.ld_unit_zero (S := S1x128) hz1]
  rw [blk1_0 V c t, blk1_1 V c t, blk1_2 V c t, blk1_3 V c t, blk1_4 V c t, blk1_5 V c t, blk1_6 V c t]
  funext j
  have ht : t.val < 10 := lt_of_lt_of_eq t.isLt N_1
  have hj0 : (j 0).val < 5000 := (j 0).isLt
  have hj1 : (j 1).val < 128 := (j 1).isLt
  have e1 : (cfg1.win 7).xinj (grid1.coords t) j = ix2 (⟨(j 0).val, hj0⟩ : Fin 5000) (⟨(j 1).val, hj1⟩ : Fin 128) :=
    funext fun a => Fin.ext (by match a with | ⟨0, _⟩ => rfl | ⟨1, _⟩ => rfl)
  have e2 : ((cfg1.win 7).blk t).view.emb j
      = ix2 (⟨t.val * 5000 + (j 0).val, by omega⟩ : Fin 50000) (⟨(j 1).val, hj1⟩ : Fin 128) :=
    funext fun a => Fin.ext (by
      match a with
      | ⟨0, _⟩ => show win1_7.index t 0 * 5000 + 1 * (j 0).val = t.val * 5000 + (j 0).val; rw [(idx_facts1 t).2.2.2.2.2.2.2.2.2.2.2.2.2.2.1]; omega
      | ⟨1, _⟩ => show win1_7.index t 1 * 128 + 1 * (j 1).val = (j 1).val; rw [(idx_facts1 t).2.2.2.2.2.2.2.2.2.2.2.2.2.2.2]; omega)
  show k1_pay1 (F := Ideal) _ _ _ _ _ _ _ ((cfg1.win 7).xinj (grid1.coords t) j) = Cert.Spec.fuse _ _ _ _ _ _ _ (((cfg1.win 7).blk t).view.emb j)
  rw [e1, e2]
  exact fuse_rows_apply (V c main_v50) (V c main_v54) (V c main_v55) (V c main_v56) (V c main_v57) (V c main_v58) (V c main_v59)
    t.val ht ⟨(j 0).val, hj0⟩ ⟨(j 1).val, hj1⟩

/-- An index of the output array is in point `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v60).slice (win1_7.rect t)).set ↔ _
  rw [View.set_slice_whole, Rect.mem_set_unit]
  exact Iff.rfl

/-- Row `r` of the output array is written by point `r / 5000`: the ten blocks tile the array. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_7 _, ?_⟩
  rw [mem_blk1]
  have e14 := (idx_facts1 ⟨(i 0).val / 5000, by rw [hN]; omega⟩).2.2.2.2.2.2.2.2.2.2.2.2.2.2.1
  have e15 := (idx_facts1 ⟨(i 0).val / 5000, by rw [hN]; omega⟩).2.2.2.2.2.2.2.2.2.2.2.2.2.2.2
  intro a
  match a with
  | ⟨0, _⟩ =>
    show win1_7.index _ (0 : Fin 2) * 5000 ≤ (i 0).val ∧ (i 0).val < win1_7.index _ (0 : Fin 2) * 5000 + 5000
    rw [e14]; show (i 0).val / 5000 * 5000 ≤ (i 0).val ∧ (i 0).val < (i 0).val / 5000 * 5000 + 5000; omega
  | ⟨1, _⟩ =>
    show win1_7.index _ (1 : Fin 2) * 128 ≤ (i 1).val ∧ (i 1).val < win1_7.index _ (1 : Fin 2) * 128 + 128
    rw [e15]; omega

/-- The fusion region's output array after its ten grid points is the specification's fusion layer of its seven
    input arrays as the region finds them. -/
theorem final1 (V : (c : Dev nD) → (b : Ref sig .tc) → Buf (Elt Ideal) ((c : Thread nD τ).loc b)) (c : Dev nD) :
    (dat1 (F := Ideal) V c).arrAt 7 cfg1.N = Cert.Spec.fuse (V c main_v50) (V c main_v54) (V c main_v55) (V c main_v56) (V c main_v57) (V c main_v58) (V c main_v59) :=
  (dat1 V c).arrAt_eq_of_cover 7 (Cert.Spec.fuse (V c main_v50) (V c main_v54) (V c main_v55) (V c main_v56) (V c main_v57) (V c main_v58) (V c main_v59)) (fun t _ => flushed1_eq V c t) cover1

end Cert.KernelIdeal.Regions

end
-- ==== Proof.Region2.lean ====
/-
  The head region, read as a value: the region has one grid point and every window is its whole array, so the one
  block the point writes back is the whole output array. The body divides each graph's pooled sum by its node count
  (at least one), applies a linear layer with its bias row, the rectifier, and a second linear layer with its bias
  row; on extended reals a change of float format is the identity and a matrix product into a zero accumulator is
  the plain sum of products over the shared axis. Read element by element this is the specification's `head` of the
  six input arrays as the region finds them.
-/
import proofs.«176967_j76450417868973_1_alg».proof.Proof.Gen.KernelIdeal.Frame
import proofs.«176967_j76450417868973_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

/-! The index functions of the product `S512x128 · S128x128`: a result element at row `p`, column `q` meets the left
    factor at row `p` and the right factor at column `q`, both at the contracted position. -/
theorem matmul_hidden_apply_l0 (i : S512x128.Idx) (c : dot_S512x128_S128x128_S512x128_1_0_0_1_n_n.contr.Idx) :
    (dot_S512x128_S128x128_S512x128_1_0_0_1_n_n.lhsIdx i c 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem matmul_hidden_apply_l1 (i : S512x128.Idx) (c : dot_S512x128_S128x128_S512x128_1_0_0_1_n_n.contr.Idx) :
    (dot_S512x128_S128x128_S512x128_1_0_0_1_n_n.lhsIdx i c 1).val = (c ⟨0, by decide⟩).val :=
  dot_S512x128_S128x128_S512x128_1_0_0_1_n_n.lhsIdx_val_of_single rfl i c
theorem matmul_hidden_apply_r0 (i : S512x128.Idx) (c : dot_S512x128_S128x128_S512x128_1_0_0_1_n_n.contr.Idx) :
    (dot_S512x128_S128x128_S512x128_1_0_0_1_n_n.rhsIdx i c 0).val = (c ⟨0, by decide⟩).val :=
  dot_S512x128_S128x128_S512x128_1_0_0_1_n_n.rhsIdx_val_of_single rfl i c
theorem matmul_hidden_apply_r1 (i : S512x128.Idx) (c : dot_S512x128_S128x128_S512x128_1_0_0_1_n_n.contr.Idx) :
    (dot_S512x128_S128x128_S512x128_1_0_0_1_n_n.rhsIdx i c 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The matrix product into a zero accumulator, read at row `p` and column `q`: the sum over the shared axis of
    the products of row `p` of the left factor and column `q` of the right one. -/
theorem matmul_hidden_apply (a : FVec Ideal S512x128 .bf16) (b : FVec Ideal S128x128 .bf16) (p : Fin 512) (q : Fin 128) :
    matmul dot_S512x128_S128x128_S512x128_1_0_0_1_n_n none a b (constant S512x128 .f32 0x00000000#32) (ix2 p q)
      = ∑ k : Fin 128, a (ix2 p k) * b (ix2 k q) := by
  refine (Ideal.matmul_constant_zero_apply dot_S512x128_S128x128_S512x128_1_0_0_1_n_n none a b (ix2 p q)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k :=
    funext fun d => Fin.ext (by
      match d with
      | ⟨0, _⟩ => exact matmul_hidden_apply_l0 _ _
      | ⟨1, _⟩ => exact (matmul_hidden_apply_l1 _ _).trans hk)
  have er : dot_S512x128_S128x128_S512x128_1_0_0_1_n_n.rhsIdx (ix2 p q) ((contrEquiv1 dot_S512x128_S128x128_S512x128_1_0_0_1_n_n 128 rfl rfl).symm k) = ix2 k q :=
    funext fun d => Fin.ext (by
      match d with
      | ⟨0, _⟩ => exact (matmul_hidden_apply_r0 _ _).trans hk
      | ⟨1, _⟩ => exact matmul_hidden_apply_r1 _ _)
  rw [el, er]

/-! The index functions of the product `S512x128 · S128x2`: a result element at row `p`, column `q` meets the left
    factor at row `p` and the right factor at column `q`, both at the contracted position. -/
theorem matmul_out_apply_l0 (i : S512x2.Idx) (c : dot_S512x128_S128x2_S512x2_1_0_0_1_n_n.contr.Idx) :
    (dot_S512x128_S128x2_S512x2_1_0_0_1_n_n.lhsIdx i c 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem matmul_out_apply_l1 (i : S512x2.Idx) (c : dot_S512x128_S128x2_S512x2_1_0_0_1_n_n.contr.Idx) :
    (dot_S512x128_S128x2_S512x2_1_0_0_1_n_n.lhsIdx i c 1).val = (c ⟨0, by decide⟩).val :=
  dot_S512x128_S128x2_S512x2_1_0_0_1_n_n.lhsIdx_val_of_single rfl i c
theorem matmul_out_apply_r0 (i : S512x2.Idx) (c : dot_S512x128_S128x2_S512x2_1_0_0_1_n_n.contr.Idx) :
    (dot_S512x128_S128x2_S512x2_1_0_0_1_n_n.rhsIdx i c 0).val = (c ⟨0, by decide⟩).val :=
  dot_S512x128_S128x2_S512x2_1_0_0_1_n_n.rhsIdx_val_of_single rfl i c
theorem matmul_out_apply_r1 (i : S512x2.Idx) (c : dot_S512x128_S128x2_S512x2_1_0_0_1_n_n.contr.Idx) :
    (dot_S512x128_S128x2_S512x2_1_0_0_1_n_n.rhsIdx i c 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The matrix product into a zero accumulator, read at row `p` and column `q`: the sum over the shared axis of
    the products of row `p` of the left factor and column `q` of the right one. -/
theorem matmul_out_apply (a : FVec Ideal S512x128 .bf16) (b : FVec Ideal S128x2 .bf16) (p : Fin 512) (q : Fin 2) :
    matmul dot_S512x128_S128x2_S512x2_1_0_0_1_n_n none a b (constant S512x2 .f32 0x00000000#32) (ix2 p q)
      = ∑ k : Fin 128, a (ix2 p k) * b (ix2 k q) := by
  refine (Ideal.matmul_constant_zero_apply dot_S512x128_S128x2_S512x2_1_0_0_1_n_n none a b (ix2 p q)).trans ?_
  rw [← Equiv.sum_comp (contrEquiv1 dot_S512x128_S128x2_S512x2_1_0_0_1_n_n 128 rfl rfl).symm]
  refine Finset.sum_congr rfl fun k _ => ?_
  have hk := contrEquiv1_symm_val dot_S512x128_S128x2_S512x2_1_0_0_1_n_n 128 rfl rfl k
  have el : dot_S512x128_S128x2_S512x2_1_0_0_1_n_n.lhsIdx (ix2 p q) ((contrEquiv1 dot_S512x128_S128x2_S512x2_1_0_0_1_n_n 128 rfl rfl).symm k) = ix2 p k :=
    funext fun d => Fin.ext (by
      match d with
      | ⟨0, _⟩ => exact matmul_out_apply_l0 _ _
      | ⟨1, _⟩ => exact (matmul_out_apply_l1 _ _).trans hk)
  have er : dot_S512x128_S128x2_S512x2_1_0_0_1_n_n.rhsIdx (ix2 p q) ((contrEquiv1 dot_S512x128_S128x2_S512x2_1_0_0_1_n_n 128 rfl rfl).symm k) = ix2 k q :=
    funext fun d => Fin.ext (by
      match d with
      | ⟨0, _⟩ => exact (matmul_out_apply_r0 _ _).trans hk
      | ⟨1, _⟩ => exact matmul_out_apply_r1 _ _)
  rw [el, er]

/-- A column, broadcast along its rows, read at row `p`: the column's entry at `p`, whatever the lane. -/
theorem bcast_col_apply {α : Type} (x : S512x1.Idx → α) (p : Fin 512) (l : Fin 128) :
    broadcastTo S512x128 x broadcasts_S512x1_S512x128 (ix2 p l) = x (ix2 p 0) :=
  broadcastTo_apply x broadcasts_S512x1_S512x128 (ix2 p l) (ix2 p 0) fun a => by
    match a with
    | ⟨0, _⟩ => show p.val = if (512 : Nat) = 1 then 0 else p.val; rw [if_neg (by decide)]
    | ⟨1, _⟩ => show (0 : Fin 1).val = if (1 : Nat) = 1 then 0 else l.val; rw [if_pos rfl]; rfl

/-- A row of 128, broadcast down the rows, read at column `k`: the row's entry at `k`, whatever the row. -/
theorem bcast_row128_apply {α : Type} (x : S1x128.Idx → α) (p : Fin 512) (k : Fin 128) :
    broadcastTo S512x128 x broadcasts_S1x128_S512x128 (ix2 p k) = x (ix2 0 k) :=
  broadcastTo_apply x broadcasts_S1x128_S512x128 (ix2 p k) (ix2 0 k) fun a => by
    match a with
    | ⟨0, _⟩ => show (0 : Fin 1).val = if (1 : Nat) = 1 then 0 else p.val; rw [if_pos rfl]; rfl
    | ⟨1, _⟩ => show k.val = if (128 : Nat) = 1 then 0 else k.val; rw [if_neg (by decide)]

/-- A row of 2, broadcast down the rows, read at column `q`: the row's entry at `q`, whatever the row. -/
theorem bcast_row2_apply {α : Type} (x : S1x2.Idx → α) (p : Fin 512) (q : Fin 2) :
    broadcastTo S512x2 x broadcasts_S1x2_S512x2 (ix2 p q) = x (ix2 0 q) :=
  broadcastTo_apply x broadcasts_S1x2_S512x2 (ix2 p q) (ix2 0 q) fun a => by
    match a with
    | ⟨0, _⟩ => show (0 : Fin 1).val = if (1 : Nat) = 1 then 0 else p.val; rw [if_pos rfl]; rfl
    | ⟨1, _⟩ => show q.val = if (2 : Nat) = 1 then 0 else q.val; rw [if_neg (by decide)]

/-- The body's result at row `p`, column `q`, over any six loaded blocks, is the specification's head there: the
    pooled sums divided by the counts (at least one), a linear layer with its bias row, the rectifier, a linear
    layer with its bias row. A change of float format is the identity on extended reals. -/
theorem head_apply (v0 : Vec Ideal S512x128 .f32) (v2 : Vec Ideal S512x1 .f32) (v9 : Vec Ideal S128x128 .f32)
    (v12 : Vec Ideal S1x128 .f32) (v19 : Vec Ideal S128x2 .f32) (v22 : Vec Ideal S1x2 .f32) (p : Fin 512) (q : Fin 2) :
    k2_pay1 v0 v2 v9 v12 v19 v22 (ix2 p q) = Cert.Spec.head v0 v2 v9 v12 v19 v22 (ix2 p q) := by
  unfold k2_pay1
  simp only [shapeCast_self]
  show _ = Cert.Spec.dot (Cert.Spec.hidden v0 v2 v9 v12) v19 p q + v22 (ix2 0 q)
  refine (addf_apply _ _ (ix2 p q)).trans (congrArg₂ (· + ·) ?_ (bcast_row2_apply v22 p q))
  refine (matmul_out_apply _ _ p q).trans (Finset.sum_congr rfl fun k _ => congrArg₂ (· * ·) ?_ rfl)
  show max (_ + _) _ = max (_ + v12 (ix2 0 k)) Cert.Spec.zero
  refine congrArg₂ max (congrArg₂ (· + ·) ?_ (bcast_row128_apply v12 p k)) rfl
  refine (matmul_hidden_apply _ _ p k).trans (Finset.sum_congr rfl fun l _ => congrArg₂ (· * ·) ?_ rfl)
  show Ideal.div (v0 (ix2 p l)) _ = Ideal.div (v0 (ix2 p l)) (max (v2 (ix2 p 0)) Cert.Spec.one)
  exact congrArg (Ideal.div (v0 (ix2 p l))) (bcast_col_apply _ p l)

theorem hz2 : (![0, 0] : Fin 2 → Nat) = fun _ => 0 := funext fun a => by fin_cases a <;> rfl

/-- The grid has one point, and at it every window's block index is zero on both axes: each block is its array. -/
theorem idx_zero2 : ∀ t : Fin cfg2.N,
    (win2_0.index t (0 : Fin 2) = 0 ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0) :=
  (by decide +kernel : ∀ t : Fin grid2.N, _)

/-- Window 0 is its whole array: its one block, read off the array, is the array. -/
theorem blk2_0 (V : (c : Dev nD) → (b : Ref sig .tc) → Buf (Elt Ideal) ((c : Thread nD τ).loc b)) (c : Dev nD) (t : Fin cfg2.N) :
    (iblk2 V c 0 t : Vec Ideal S512x128 .f32) = (V c main_v67 : S512x128.Idx → EReal) := by
  funext y
  unfold iblk2
  rw [View.read_apply]
  show V c main_v67 _ = V c main_v67 _
  congr 1
  funext a
  apply Fin.ext
  match a with
  | ⟨0, _⟩ => show win2_0.index t 0 * 512 + 1 * (y 0).val = (y 0).val; rw [(idx_zero2 t).1.1]; omega
  | ⟨1, _⟩ => show win2_0.index t 1 * 128 + 1 * (y 1).val = (y 1).val; rw [(idx_zero2 t).1.2]; omega

/-- Window 1 is its whole array: its one block, read off the array, is the array. -/
theorem blk2_1 (V : (c : Dev nD) → (b : Ref sig .tc) → Buf (Elt Ideal) ((c : Thread nD τ).loc b)) (c : Dev nD) (t : Fin cfg2.N) :
    (iblk2 V c 1 t : Vec Ideal S512x1 .f32) = (V c main_v68 : S512x1.Idx → EReal) := by
  funext y
  unfold iblk2
  rw [View.read_apply]
  show V c main_v68 _ = V c main_v68 _
  congr 1
  funext a
  apply Fin.ext
  match a with
  | ⟨0, _⟩ => show win2_1.index t 0 * 512 + 1 * (y 0).val = (y 0).val; rw [(idx_zero2 t).2.1.1]; omega
  | ⟨1, _⟩ => show win2_1.index t 1 * 1 + 1 * (y 1).val = (y 1).val; rw [(idx_zero2 t).2.1.2]; omega

/-- Window 2 is its whole array: its one block, read off the array, is the array. -/
theorem blk2_2 (V : (c : Dev nD) → (b : Ref sig .tc) → Buf (Elt Ideal) ((c : Thread nD τ).loc b)) (c : Dev nD) (t : Fin cfg2.N) :
    (iblk2 V c 2 t : Vec Ideal S128x128 .f32) = (V c main_arg9 : S128x128.Idx → EReal) := by
  funext y
  unfold iblk2
  rw [View.read_apply]
  show V c main_arg9 _ = V c main_arg9 _
  congr 1
  funext a
  apply Fin.ext
  match a with
  | ⟨0, _⟩ => show win2_2.index t 0 * 128 + 1 * (y 0).val = (y 0).val; rw [(idx_zero2 t).2.2.1.1]; omega
  | ⟨1, _⟩ => show win2_2.index t 1 * 128 + 1 * (y 1).val = (y 1).val; rw [(idx_zero2 t).2.2.1.2]; omega

/-- Window 3 is its whole array: its one block, read off the array, is the array. -/
theorem blk2_3 (V : (c : Dev nD) → (b : Ref sig .tc) → Buf (Elt Ideal) ((c : Thread nD τ).loc b)) (c : Dev nD) (t : Fin cfg2.N) :
    (iblk2 V c 3 t : Vec Ideal S1x128 .f32) = (V c main_v69 : S1x128.Idx → EReal) := by
  funext y
  unfold iblk2
  rw [View.read_apply]
  show V c main_v69 _ = V c main_v69 _
  congr 1
  funext a
  apply Fin.ext
  match a with
  | ⟨0, _⟩ => show win2_3.index t 0 * 1 + 1 * (y 0).val = (y 0).val; rw [(idx_zero2 t).2.2.2.1.1]; omega
  | ⟨1, _⟩ => show win2_3.index t 1 * 128 + 1 * (y 1).val = (y 1).val; rw [(idx_zero2 t).2.2.2.1.2]; omega

/-- Window 4 is its whole array: its one block, read off the array, is the array. -/
theorem blk2_4 (V : (c : Dev nD) → (b : Ref sig .tc) → Buf (Elt Ideal) ((c : Thread nD τ).loc b)) (c : Dev nD) (t : Fin cfg2.N) :
    (iblk2 V c 4 t : Vec Ideal S128x2 .f32) = (V c main_arg11 : S128x2.Idx → EReal) := by
  funext y
  unfold iblk2
  rw [View.read_apply]
  show V c main_arg11 _ = V c main_arg11 _
  congr 1
  funext a
  apply Fin.ext
  match a with
  | ⟨0, _⟩ => show win2_4.index t 0 * 128 + 1 * (y 0).val = (y 0).val; rw [(idx_zero2 t).2.2.2.2.1.1]; omega
  | ⟨1, _⟩ => show win2_4.index t 1 * 2 + 1 * (y 1).val = (y 1).val; rw [(idx_zero2 t).2.2.2.2.1.2]; omega

/-- Window 5 is its whole array: its one block, read off the array, is the array. -/
theorem blk2_5 (V : (c : Dev nD) → (b : Ref sig .tc) → Buf (Elt Ideal) ((c : Thread nD τ).loc b)) (c : Dev nD) (t : Fin cfg2.N) :
    (iblk2 V c 5 t : Vec Ideal S1x2 .f32) = (V c main_v70 : S1x2.Idx → EReal) := by
  funext y
  unfold iblk2
  rw [View.read_apply]
  show V c main_v70 _ = V c main_v70 _
  congr 1
  funext a
  apply Fin.ext
  match a with
  | ⟨0, _⟩ => show win2_5.index t 0 * 1 + 1 * (y 0).val = (y 0).val; rw [(idx_zero2 t).2.2.2.2.2.1.1]; omega
  | ⟨1, _⟩ => show win2_5.index t 1 * 2 + 1 * (y 1).val = (y 1).val; rw [(idx_zero2 t).2.2.2.2.2.1.2]; omega

/-- What the one point writes back is the block of the specification's head of the six input arrays. -/
theorem flushed2_eq (V : (c : Dev nD) → (b : Ref sig .tc) → Buf (Elt Ideal) ((c : Thread nD τ).loc b)) (c : Dev nD) (t : Fin cfg2.N) :
    (dat2 (F := Ideal) V c).flushed 6 t
      = ((cfg2.win 6).blk t).view.read (Elt Ideal) (Cert.Spec.head (V c main_v67) (V c main_v68) (V c main_arg9) (V c main_v69) (V c main_arg11) (V c main_v70)) := by
  show (cfg2.win 6).cut (grid2.coords t) ((dat2 V c).after 6 t) = _
  rw [after2_6]
  unfold out2_6
  rw [View.canon_unit_zero hz2]
  simp only [View.ld_unit_zero (S := S512x128) hz2, View.ld_unit_zero (S := S512x1) hz2, View.ld_unit_zero (S := S128x128) hz2,
    View.ld_unit_zero (S := S1x128) hz2, View.ld_unit_zero (S := S128x2) hz2, View.ld_unit_zero (S := S1x2) hz2]
  rw [blk2_0 V c t, blk2_1 V c t, blk2_2 V c t, blk2_3 V c t, blk2_4 V c t, blk2_5 V c t]
  funext j
  have hj0 : (j 0).val < 512 := (j 0).isLt
  have hj1 : (j 1).val < 2 := (j 1).isLt
  have e1 : (cfg2.win 6).xinj (grid2.coords t) j = ix2 (⟨(j 0).val, hj0⟩ : Fin 512) (⟨(j 1).val, hj1⟩ : Fin 2) :=
    funext fun a => Fin.ext (by match a with | ⟨0, _⟩ => rfl | ⟨1, _⟩ => rfl)
  have e2 : ((cfg2.win 6).blk t).view.emb j = ix2 (⟨(j 0).val, hj0⟩ : Fin 512) (⟨(j 1).val, hj1⟩ : Fin 2) :=
    funext fun a => Fin.ext (by
      match a with
      | ⟨0, _⟩ => show win2_6.index t 0 * 512 + 1 * (j 0).val = (j 0).val; rw [(idx_zero2 t).2.2.2.2.2.2.1]; omega
      | ⟨1, _⟩ => show win2_6.index t 1 * 2 + 1 * (j 1).val = (j 1).val; rw [(idx_zero2 t).2.2.2.2.2.2.2]; omega)
  show k2_pay1 (F := Ideal) _ _ _ _ _ _ ((cfg2.win 6).xinj (grid2.coords t) j) = Cert.Spec.head _ _ _ _ _ _ (((cfg2.win 6).blk t).view.emb j)
  rw [e1, e2]
  exact head_apply _ _ _ _ _ _ _ _

/-- The one block covers the whole output array. -/
theorem cover2 (i : S512x2.Idx) :
    ∃ t : Fin cfg2.N, (cfg2.win 6).flush t = true ∧ i ∈ ((cfg2.win 6).blk t).view.set := by
  refine ⟨t2_0, flush2_6 t2_0, ?_⟩
  show i ∈ ((View.whole main_v71).slice (win2_6.rect t2_0)).set
  rw [View.set_slice_whole, Rect.mem_set_unit]
  have hi0 : (i 0).val < 512 := (i 0).isLt
  have hi1 : (i 1).val < 2 := (i 1).isLt
  intro a
  match a with
  | ⟨0, _⟩ => show win2_6.index t2_0 0 * 512 ≤ (i 0).val ∧ (i 0).val < win2_6.index t2_0 0 * 512 + 512; rw [(idx_zero2 t2_0).2.2.2.2.2.2.1]; omega
  | ⟨1, _⟩ => show win2_6.index t2_0 1 * 2 ≤ (i 1).val ∧ (i 1).val < win2_6.index t2_0 1 * 2 + 2; rw [(idx_zero2 t2_0).2.2.2.2.2.2.2]; omega

/-- The head region's output array after its one grid point is the specification's head of its six input arrays
    as the region finds them. -/
theorem final2 (V : (c : Dev nD) → (b : Ref sig .tc) → Buf (Elt Ideal) ((c : Thread nD τ).loc b)) (c : Dev nD) :
    (dat2 (F := Ideal) V c).arrAt 6 cfg2.N = Cert.Spec.head (V c main_v67) (V c main_v68) (V c main_arg9) (V c main_v69) (V c main_arg11) (V c main_v70) :=
  (dat2 V c).arrAt_eq_of_cover 6 (Cert.Spec.head (V c main_v67) (V c main_v68) (V c main_arg9) (V c main_v69) (V c main_arg11) (V c main_v70)) (fun t _ => flushed2_eq V c t) cover2

end Cert.KernelIdeal.Regions

end
-- ==== Proof.Closed.lean ====
/-
  The whole network as ONE function of its thirteen argument arrays, stage by stage, in the arrangement the kernel
  program uses: the message indices (the edge list's two rows, each followed by the self loops `0 … 49999`), the
  degree of every node and its inverse square root (zero where the degree is not positive), the normalisation of
  every message (the product of the two end points' inverse square roots), the two convolutions run side by side on
  256 columns (linear map, gather by source, scale, sum into targets) and cut into their halves with the biases
  added, the fusion layer, the sums over each graph's nodes and the node counts, and the head. Both programs' results
  are shown equal to `result` of their argument arrays.
-/
import proofs.«176967_j76450417868973_1_alg».proof.Proof.Gen.KernelIdeal
import proofs.«176967_j76450417868973_1_alg».proof.Proof.Spec
import Idealize.ShloMosaic.PureOps.Ideal

noncomputable section

namespace Cert.Closed

open Cert.KernelIdeal Cert.KernelIdeal.Gen Idealize.ShloMosaic

/-- The messages' source nodes: the edge list's first row, then every node once (its self loop). -/
def srcIdx (e : IVec S2x600000 32) : IVec S650000 32 :=
  concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0

/-- The messages' target nodes: the edge list's second row, then every node once. -/
def dstIdx (e : IVec S2x600000 32) : IVec S650000 32 :=
  concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0

/-- A negative index counts from the end of the node table: add its height. -/
def wrap (i : IVec S650000 32) : IVec S650000 32 :=
  select (cmpi .slt i (broadcastInDim S650000 ![] bcast_S_S650000 (constantI S_ 32 0#32))) (addi i (broadcastInDim S650000 ![] bcast_S_S650000 (constantI S_ 32 50000#32))) i

/-- An index vector as a one-column array of index vectors of length one. -/
def col (i : IVec S650000 32) : IVec S650000x1 32 :=
  broadcastInDim S650000x1 ![0] bcast_S650000_S650000x1_0 i

/-- Every node's degree: one for each message that targets it. -/
def deg (e : IVec S2x600000 32) : FVec Ideal S50000 .f32 :=
  Host.scatterAdd scatter_S50000_S650000x1_S650000_n_0_0_1 (broadcastInDim S50000 ![] bcast_S_S50000 (constant (F := Ideal) S_ .f32 0x00000000#32)) (col (dstIdx e)) (broadcastInDim S650000 ![] bcast_S_S650000 (constant (F := Ideal) S_ .f32 0x3F800000#32))

/-- The inverse square root of the degree (at least the small positive literal), zero where the degree is not positive. -/
def dis (e : IVec S2x600000 32) : FVec Ideal S50000 .f32 :=
  select (cmpf (F := Ideal) .ogt (deg e) (broadcastInDim S50000 ![] bcast_S_S50000 (constant (F := Ideal) S_ .f32 0x00000000#32))) (Host.rsqrt (maximumf (deg e) (broadcastInDim S50000 ![] bcast_S_S50000 (constant (F := Ideal) S_ .f32 0x2B8CBCCC#32)))) (broadcastInDim S50000 ![] bcast_S_S50000 (id (constant (F := Ideal) S_ .f32 0x00000000#32)))

/-- Every message's normalisation: its source's factor times its target's. -/
def norm (e : IVec S2x600000 32) : FVec Ideal S650000 .f32 :=
  mulf (Host.gather gather_S50000_S650000x1_S650000_n_0_n_n_0_1_1 (dis e) (col (wrap (srcIdx e)))) (Host.gather gather_S50000_S650000x1_S650000_n_0_n_n_0_1_1 (dis e) (col (wrap (dstIdx e))))

/-- The normalisations as a one-column array. -/
def normCol (e : IVec S2x600000 32) : FVec Ideal S650000x1 .f32 :=
  broadcastInDim S650000x1 ![0] bcast_S650000_S650000x1_0 (norm e)

/-- Message passing on 256 columns: gather the table's rows by source, scale each row by its message's normalisation,
    sum the rows into their targets. -/
def conv (h : FVec Ideal S50000x256 .f32) (e : IVec S2x600000 32) : FVec Ideal S50000x256 .f32 :=
  Host.scatterAdd scatter_S50000x256_S650000x1_S650000x256_1_0_0_1 (broadcastInDim S50000x256 ![] bcast_S_S50000x256 (constant (F := Ideal) S_ .f32 0x00000000#32)) (col (dstIdx e)) (mulf (Host.gather gather_S50000x256_S650000x1_S650000x256_1_0_n_n_0_1_1256 h (col (wrap (srcIdx e)))) (broadcastInDim S650000x256 ![0, 1] bcast_S650000x1_S650000x256_0_1 (normCol e)))

/-- A bias vector repeated down the 50000 rows. -/
def biasRows (b : FVec Ideal S128 .f32) : FVec Ideal S50000x128 .f32 :=
  broadcastInDim S50000x128 ![0, 1] bcast_S1x128_S50000x128_0_1 (broadcastInDim S1x128 ![1] bcast_S128_S1x128_1 b)

/-- The node features against the two convolutions' weights side by side. -/
def wide (x : FVec Ideal S50000x128 .f32) (w1 w2 : FVec Ideal S128x128 .f32) : FVec Ideal S50000x256 .f32 :=
  Cert.Spec.proj x (concatenate S128x256 1 [⟨S128x128, w1⟩, ⟨S128x128, w2⟩] concatenates_S128x128_S128x128_S128x256_d1)

/-- The first convolution's output: the left half of the wide message passing, plus its bias. -/
def xS (x : FVec Ideal S50000x128 .f32) (e : IVec S2x600000 32) (w1 w2 : FVec Ideal S128x128 .f32) (b1 : FVec Ideal S128 .f32) :
    FVec Ideal S50000x128 .f32 :=
  addf (extractStridedSlice S50000x128 ![0, 0] (conv (wide x w1 w2) e) slices_S50000x256_S50000x128_0_0) (biasRows b1)

/-- The second convolution's output: the right half, plus its bias. -/
def xD (x : FVec Ideal S50000x128 .f32) (e : IVec S2x600000 32) (w1 w2 : FVec Ideal S128x128 .f32) (b2 : FVec Ideal S128 .f32) :
    FVec Ideal S50000x128 .f32 :=
  addf (extractStridedSlice S50000x128 ![0, 128] (conv (wide x w1 w2) e) slices_S50000x256_S50000x128_0_128) (biasRows b2)

/-- The fusion layer on the two convolutions' outputs: the fusion weights cut into their four 128-row pieces. -/
def fused (x : FVec Ideal S50000x128 .f32) (e : IVec S2x600000 32) (w1 : FVec Ideal S128x128 .f32) (b1 : FVec Ideal S128 .f32)
    (w2 : FVec Ideal S128x128 .f32) (b2 : FVec Ideal S128 .f32) (wf : FVec Ideal S512x128 .f32) (bf : FVec Ideal S128 .f32) :
    FVec Ideal S50000x128 .f32 :=
  Cert.Spec.fuse (xS x e w1 w2 b1) (xD x e w1 w2 b2) (extractStridedSlice S128x128 ![0, 0] wf slices_S512x128_S128x128_0_0) (extractStridedSlice S128x128 ![128, 0] wf slices_S512x128_S128x128_128_0) (extractStridedSlice S128x128 ![256, 0] wf slices_S512x128_S128x128_256_0) (extractStridedSlice S128x128 ![384, 0] wf slices_S512x128_S128x128_384_0) (shapeCast S1x128 bf shapeCasts_S128_S1x128)

/-- The graph of every node as a one-column array of index vectors of length one. -/
def rows (g : IVec S50000 32) : IVec S50000x1 32 :=
  broadcastInDim S50000x1 ![0] bcast_S50000_S50000x1_0 g

/-- Each graph's sum of its nodes' fused features. -/
def pooled (g : IVec S50000 32) (f : FVec Ideal S50000x128 .f32) : FVec Ideal S512x128 .f32 :=
  Host.scatterAdd scatter_S512x128_S50000x1_S50000x128_1_0_0_1 (broadcastInDim S512x128 ![] bcast_S_S512x128 (constant (F := Ideal) S_ .f32 0x00000000#32)) (rows g) f

/-- Each graph's number of nodes. -/
def counts (g : IVec S50000 32) : FVec Ideal S512 .f32 :=
  Host.scatterAdd scatter_S512_S50000x1_S50000_n_0_0_1 (broadcastInDim S512 ![] bcast_S_S512 (constant (F := Ideal) S_ .f32 0x00000000#32)) (rows g) (broadcastInDim S50000 ![] bcast_S_S50000 (constant (F := Ideal) S_ .f32 0x3F800000#32))

/-- The network's result on its thirteen arguments. -/
def result (x : FVec Ideal S50000x128 .f32) (e : IVec S2x600000 32) (g : IVec S50000 32)
    (w1 : FVec Ideal S128x128 .f32) (b1 : FVec Ideal S128 .f32) (w2 : FVec Ideal S128x128 .f32) (b2 : FVec Ideal S128 .f32)
    (wf : FVec Ideal S512x128 .f32) (bf : FVec Ideal S128 .f32) (wh1 : FVec Ideal S128x128 .f32) (bh1 : FVec Ideal S128 .f32)
    (wh2 : FVec Ideal S128x2 .f32) (bh2 : FVec Ideal S2 .f32) : FVec Ideal S512x2 .f32 :=
  Cert.Spec.head (pooled g (fused x e w1 b1 w2 b2 wf bf)) (shapeCast S512x1 (counts g) shapeCasts_S512_S512x1) wh1 (shapeCast S1x128 bh1 shapeCasts_S128_S1x128) wh2 (shapeCast S1x2 bh2 shapeCasts_S2_S1x2)

end Cert.Closed

end
-- ==== Proof.KernelArgs.lean ====
/-
  The thirteen argument arrays are never written: no host operation's result buffer is an argument, and a region
  leaves every buffer other than its own arrays as it found it. So at each boundary of the program an argument's
  buffer still holds its launch contents. Stated at the boundaries where the later stages read the arguments.
-/
import proofs.«176967_j76450417868973_1_alg».proof.Proof.Gen.KernelIdeal.Frame
import Idealize.ShloMosaic.Lib.StableHlo.Run
import Idealize.ShloMosaic.PureOps.Ideal

noncomputable section

namespace Cert.KernelIdeal.ValueK

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes holds after the stretch what it held before: every
    operation's result buffer is another one. -/
macro "unwritten" : tactic => `(tactic|
  (refine StableHlo.after_of_forall_not_mem _ _ (List.forall_iff_forall_mem.mp ?_)
   simp only [hostOps0, hostOps0_1, hostOps0_2, hostOps1, hostOps2, List.flatten_cons, List.flatten_nil, List.append_nil,
     List.cons_append, List.nil_append, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-! ## The arguments are never written: at every boundary an argument's buffer holds its launch contents -/

theorem arg0_W3 : W3 m ρ c (Proc.devRef .tc main_arg0) = (m ((c : Thread nD τ).loc main_arg0)) :=
  calc W3 m ρ c (Proc.devRef .tc main_arg0)
    _ = W2 m ρ c (Proc.devRef .tc main_arg0) := by unwritten
    _ = W1 m ρ c (Proc.devRef .tc main_arg0) := by unwritten
    _ = W0 m ρ c (Proc.devRef .tc main_arg0) := by unwritten
    _ = (m ((c : Thread nD τ).loc main_arg0)) := rfl

theorem arg1_W3 : W3 m ρ c (Proc.devRef .tc main_arg1) = (m ((c : Thread nD τ).loc main_arg1)) :=
  calc W3 m ρ c (Proc.devRef .tc main_arg1)
    _ = W2 m ρ c (Proc.devRef .tc main_arg1) := by unwritten
    _ = W1 m ρ c (Proc.devRef .tc main_arg1) := by unwritten
    _ = W0 m ρ c (Proc.devRef .tc main_arg1) := by unwritten
    _ = (m ((c : Thread nD τ).loc main_arg1)) := rfl

theorem arg2_W3 : W3 m ρ c (Proc.devRef .tc main_arg2) = (m ((c : Thread nD τ).loc main_arg2)) :=
  calc W3 m ρ c (Proc.devRef .tc main_arg2)
    _ = W2 m ρ c (Proc.devRef .tc main_arg2) := by unwritten
    _ = W1 m ρ c (Proc.devRef .tc main_arg2) := by unwritten
    _ = W0 m ρ c (Proc.devRef .tc main_arg2) := by unwritten
    _ = (m ((c : Thread nD τ).loc main_arg2)) := rfl

theorem arg3_W3 : W3 m ρ c (Proc.devRef .tc main_arg3) = (m ((c : Thread nD τ).loc main_arg3)) :=
  calc W3 m ρ c (Proc.devRef .tc main_arg3)
    _ = W2 m ρ c (Proc.devRef .tc main_arg3) := by unwritten
    _ = W1 m ρ c (Proc.devRef .tc main_arg3) := by unwritten
    _ = W0 m ρ c (Proc.devRef .tc main_arg3) := by unwritten
    _ = (m ((c : Thread nD τ).loc main_arg3)) := rfl

theorem arg4_W3 : W3 m ρ c (Proc.devRef .tc main_arg4) = (m ((c : Thread nD τ).loc main_arg4)) :=
  calc W3 m ρ c (Proc.devRef .tc main_arg4)
    _ = W2 m ρ c (Proc.devRef .tc main_arg4) := by unwritten
    _ = W1 m ρ c (Proc.devRef .tc main_arg4) := by unwritten
    _ = W0 m ρ c (Proc.devRef .tc main_arg4) := by unwritten
    _ = (m ((c : Thread nD τ).loc main_arg4)) := rfl

theorem arg5_W3 : W3 m ρ c (Proc.devRef .tc main_arg5) = (m ((c : Thread nD τ).loc main_arg5)) :=
  calc W3 m ρ c (Proc.devRef .tc main_arg5)
    _ = W2 m ρ c (Proc.devRef .tc main_arg5) := by unwritten
    _ = W1 m ρ c (Proc.devRef .tc main_arg5) := by unwritten
    _ = W0 m ρ c (Proc.devRef .tc main_arg5) := by unwritten
    _ = (m ((c : Thread nD τ).loc main_arg5)) := rfl

theorem arg6_W3 : W3 m ρ c (Proc.devRef .tc main_arg6) = (m ((c : Thread nD τ).loc main_arg6)) :=
  calc W3 m ρ c (Proc.devRef .tc main_arg6)
    _ = W2 m ρ c (Proc.devRef .tc main_arg6) := by unwritten
    _ = W1 m ρ c (Proc.devRef .tc main_arg6) := by unwritten
    _ = W0 m ρ c (Proc.devRef .tc main_arg6) := by unwritten
    _ = (m ((c : Thread nD τ).loc main_arg6)) := rfl

theorem arg7_W3 : W3 m ρ c (Proc.devRef .tc main_arg7) = (m ((c : Thread nD τ).loc main_arg7)) :=
  calc W3 m ρ c (Proc.devRef .tc main_arg7)
    _ = W2 m ρ c (Proc.devRef .tc main_arg7) := by unwritten
    _ = W1 m ρ c (Proc.devRef .tc main_arg7) := by unwritten
    _ = W0 m ρ c (Proc.devRef .tc main_arg7) := by unwritten
    _ = (m ((c : Thread nD τ).loc main_arg7)) := rfl

theorem arg8_W3 : W3 m ρ c (Proc.devRef .tc main_arg8) = (m ((c : Thread nD τ).loc main_arg8)) :=
  calc W3 m ρ c (Proc.devRef .tc main_arg8)
    _ = W2 m ρ c (Proc.devRef .tc main_arg8) := by unwritten
    _ = W1 m ρ c (Proc.devRef .tc main_arg8) := by unwritten
    _ = W0 m ρ c (Proc.devRef .tc main_arg8) := by unwritten
    _ = (m ((c : Thread nD τ).loc main_arg8)) := rfl

theorem arg9_W3 : W3 m ρ c (Proc.devRef .tc main_arg9) = (m ((c : Thread nD τ).loc main_arg9)) :=
  calc W3 m ρ c (Proc.devRef .tc main_arg9)
    _ = W2 m ρ c (Proc.devRef .tc main_arg9) := by unwritten
    _ = W1 m ρ c (Proc.devRef .tc main_arg9) := by unwritten
    _ = W0 m ρ c (Proc.devRef .tc main_arg9) := by unwritten
    _ = (m ((c : Thread nD τ).loc main_arg9)) := rfl

theorem arg10_W3 : W3 m ρ c (Proc.devRef .tc main_arg10) = (m ((c : Thread nD τ).loc main_arg10)) :=
  calc W3 m ρ c (Proc.devRef .tc main_arg10)
    _ = W2 m ρ c (Proc.devRef .tc main_arg10) := by unwritten
    _ = W1 m ρ c (Proc.devRef .tc main_arg10) := by unwritten
    _ = W0 m ρ c (Proc.devRef .tc main_arg10) := by unwritten
    _ = (m ((c : Thread nD τ).loc main_arg10)) := rfl

theorem arg11_W3 : W3 m ρ c (Proc.devRef .tc main_arg11) = (m ((c : Thread nD τ).loc main_arg11)) :=
  calc W3 m ρ c (Proc.devRef .tc main_arg11)
    _ = W2 m ρ c (Proc.devRef .tc main_arg11) := by unwritten
    _ = W1 m ρ c (Proc.devRef .tc main_arg11) := by unwritten
    _ = W0 m ρ c (Proc.devRef .tc main_arg11) := by unwritten
    _ = (m ((c : Thread nD τ).loc main_arg11)) := rfl

theorem arg12_W3 : W3 m ρ c (Proc.devRef .tc main_arg12) = (m ((c : Thread nD τ).loc main_arg12)) :=
  calc W3 m ρ c (Proc.devRef .tc main_arg12)
    _ = W2 m ρ c (Proc.devRef .tc main_arg12) := by unwritten
    _ = W1 m ρ c (Proc.devRef .tc main_arg12) := by unwritten
    _ = W0 m ρ c (Proc.devRef .tc main_arg12) := by unwritten
    _ = (m ((c : Thread nD τ).loc main_arg12)) := rfl

theorem arg2_W4 : W4 m ρ c (Proc.devRef .tc main_arg2) = (m ((c : Thread nD τ).loc main_arg2)) :=
  (W4_of_ne m ρ c main_arg2 (by decide)).trans (arg2_W3 m ρ c)

theorem arg4_W4 : W4 m ρ c (Proc.devRef .tc main_arg4) = (m ((c : Thread nD τ).loc main_arg4)) :=
  (W4_of_ne m ρ c main_arg4 (by decide)).trans (arg4_W3 m ρ c)

theorem arg6_W4 : W4 m ρ c (Proc.devRef .tc main_arg6) = (m ((c : Thread nD τ).loc main_arg6)) :=
  (W4_of_ne m ρ c main_arg6 (by decide)).trans (arg6_W3 m ρ c)

theorem arg7_W4 : W4 m ρ c (Proc.devRef .tc main_arg7) = (m ((c : Thread nD τ).loc main_arg7)) :=
  (W4_of_ne m ρ c main_arg7 (by decide)).trans (arg7_W3 m ρ c)

theorem arg8_W4 : W4 m ρ c (Proc.devRef .tc main_arg8) = (m ((c : Thread nD τ).loc main_arg8)) :=
  (W4_of_ne m ρ c main_arg8 (by decide)).trans (arg8_W3 m ρ c)

theorem arg9_W4 : W4 m ρ c (Proc.devRef .tc main_arg9) = (m ((c : Thread nD τ).loc main_arg9)) :=
  (W4_of_ne m ρ c main_arg9 (by decide)).trans (arg9_W3 m ρ c)

theorem arg10_W4 : W4 m ρ c (Proc.devRef .tc main_arg10) = (m ((c : Thread nD τ).loc main_arg10)) :=
  (W4_of_ne m ρ c main_arg10 (by decide)).trans (arg10_W3 m ρ c)

theorem arg11_W4 : W4 m ρ c (Proc.devRef .tc main_arg11) = (m ((c : Thread nD τ).loc main_arg11)) :=
  (W4_of_ne m ρ c main_arg11 (by decide)).trans (arg11_W3 m ρ c)

theorem arg12_W4 : W4 m ρ c (Proc.devRef .tc main_arg12) = (m ((c : Thread nD τ).loc main_arg12)) :=
  (W4_of_ne m ρ c main_arg12 (by decide)).trans (arg12_W3 m ρ c)

theorem arg2_W6 : W6 m ρ c (Proc.devRef .tc main_arg2) = (m ((c : Thread nD τ).loc main_arg2)) :=
  calc W6 m ρ c (Proc.devRef .tc main_arg2)
    _ = W5 m ρ c (Proc.devRef .tc main_arg2) := W6_of_ne m ρ c main_arg2 (by decide)
    _ = W4 m ρ c (Proc.devRef .tc main_arg2) := by unwritten
    _ = (m ((c : Thread nD τ).loc main_arg2)) := arg2_W4 m ρ c

theorem arg9_W6 : W6 m ρ c (Proc.devRef .tc main_arg9) = (m ((c : Thread nD τ).loc main_arg9)) :=
  calc W6 m ρ c (Proc.devRef .tc main_arg9)
    _ = W5 m ρ c (Proc.devRef .tc main_arg9) := W6_of_ne m ρ c main_arg9 (by decide)
    _ = W4 m ρ c (Proc.devRef .tc main_arg9) := by unwritten
    _ = (m ((c : Thread nD τ).loc main_arg9)) := arg9_W4 m ρ c

theorem arg10_W6 : W6 m ρ c (Proc.devRef .tc main_arg10) = (m ((c : Thread nD τ).loc main_arg10)) :=
  calc W6 m ρ c (Proc.devRef .tc main_arg10)
    _ = W5 m ρ c (Proc.devRef .tc main_arg10) := W6_of_ne m ρ c main_arg10 (by decide)
    _ = W4 m ρ c (Proc.devRef .tc main_arg10) := by unwritten
    _ = (m ((c : Thread nD τ).loc main_arg10)) := arg10_W4 m ρ c

theorem arg11_W6 : W6 m ρ c (Proc.devRef .tc main_arg11) = (m ((c : Thread nD τ).loc main_arg11)) :=
  calc W6 m ρ c (Proc.devRef .tc main_arg11)
    _ = W5 m ρ c (Proc.devRef .tc main_arg11) := W6_of_ne m ρ c main_arg11 (by decide)
    _ = W4 m ρ c (Proc.devRef .tc main_arg11) := by unwritten
    _ = (m ((c : Thread nD τ).loc main_arg11)) := arg11_W4 m ρ c

theorem arg12_W6 : W6 m ρ c (Proc.devRef .tc main_arg12) = (m ((c : Thread nD τ).loc main_arg12)) :=
  calc W6 m ρ c (Proc.devRef .tc main_arg12)
    _ = W5 m ρ c (Proc.devRef .tc main_arg12) := W6_of_ne m ρ c main_arg12 (by decide)
    _ = W4 m ρ c (Proc.devRef .tc main_arg12) := by unwritten
    _ = (m ((c : Thread nD τ).loc main_arg12)) := arg12_W4 m ρ c

theorem arg9_W7 : W7 m ρ c (Proc.devRef .tc main_arg9) = (m ((c : Thread nD τ).loc main_arg9)) :=
  calc W7 m ρ c (Proc.devRef .tc main_arg9)
    _ = W6 m ρ c (Proc.devRef .tc main_arg9) := by unwritten
    _ = (m ((c : Thread nD τ).loc main_arg9)) := arg9_W6 m ρ c

theorem arg11_W7 : W7 m ρ c (Proc.devRef .tc main_arg11) = (m ((c : Thread nD τ).loc main_arg11)) :=
  calc W7 m ρ c (Proc.devRef .tc main_arg11)
    _ = W6 m ρ c (Proc.devRef .tc main_arg11) := by unwritten
    _ = (m ((c : Thread nD τ).loc main_arg11)) := arg11_W6 m ρ c

end Cert.KernelIdeal.ValueK

end
-- ==== Proof.KernelEntry.lean ====
/-
  What the first region finds: the host operations before it, read at the buffers the later stages use. The
  message indices are the edge list's two rows, each followed by the self loops; every node's degree is the number of
  messages that target it; the normalisation of a message is the product of its end points' inverse square roots of
  the degree (zero where the degree is not positive); the first region's weight operand is the two convolutions'
  weights side by side. Each is the closed form's definition of the same name, of the launch contents of the
  arguments. Large tables are kept as names on both sides of an equation and compared around, never through.
-/
import proofs.«176967_j76450417868973_1_alg».proof.Proof.Gen.KernelIdeal.Frame
import proofs.«176967_j76450417868973_1_alg».proof.Proof.Closed
import Idealize.ShloMosaic.Lib.StableHlo.Run
import Idealize.ShloMosaic.PureOps.Ideal

noncomputable section

namespace Cert.KernelIdeal.ValueK

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Reads what is left of a host stretch's fold at a buffer, one operation at a time: an operation's result at its own
    result buffer is its function of its operands' contents, and at any other buffer what was there before. -/
macro "chase" : tactic => `(tactic|
  (repeat (first
     | rw [StableHlo.nullary_result] | rw [StableHlo.unary_result] | rw [StableHlo.binary_result] | rw [StableHlo.ternary_result]
     | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide))))

/-! ## Region 0's entry: the message indices, the normalisation and the weights side by side -/

set_option maxHeartbeats 4000000 in
theorem v32_W3 : W3 m ρ c (Proc.devRef .tc main_v32)
    = concatenate S128x256 1 [⟨S128x128, (m ((c : Thread nD τ).loc main_arg3))⟩, ⟨S128x128, (m ((c : Thread nD τ).loc main_arg5))⟩] concatenates_S128x128_S128x128_S128x256_d1 := by
  show StableHlo.after hostOps0_2 (StableHlo.after hostOps0_1 (StableHlo.after hostOps0 (W0 m ρ c))) (Proc.devRef .tc main_v32) = _
  after_results_simp
  rfl

set_option maxHeartbeats 4000000 in
theorem v5_W2 : W2 m ρ c (Proc.devRef .tc main_v5) = Cert.Closed.srcIdx (m ((c : Thread nD τ).loc main_arg1)) := by
  show StableHlo.after hostOps0_1 (StableHlo.after hostOps0 (W0 m ρ c)) (Proc.devRef .tc main_v5) = _
  after_results_simp
  chase
  rfl

set_option maxHeartbeats 4000000 in
theorem v6_W2 : W2 m ρ c (Proc.devRef .tc main_v6) = Cert.Closed.dstIdx (m ((c : Thread nD τ).loc main_arg1)) := by
  show StableHlo.after hostOps0_1 (StableHlo.after hostOps0 (W0 m ρ c)) (Proc.devRef .tc main_v6) = _
  after_results_simp
  chase
  rfl

/-- After the first stretch: where the degree is positive. -/
theorem v12_W1 : W1 m ρ c (Proc.devRef .tc main_v12)
    = cmpf (F := Ideal) .ogt (Cert.Closed.deg (m ((c : Thread nD τ).loc main_arg1))) (broadcastInDim S50000 ![] bcast_S_S50000 (constant (F := Ideal) S_ .f32 0x00000000#32)) := by
  show StableHlo.after hostOps0 (W0 m ρ c) (Proc.devRef .tc main_v12) = _
  after_results_simp
  chase
  rfl

/-- After the first stretch: the inverse square root of the degree, at least the small positive literal. -/
theorem v15_W1 : W1 m ρ c (Proc.devRef .tc main_v15)
    = Host.rsqrt (maximumf (Cert.Closed.deg (m ((c : Thread nD τ).loc main_arg1))) (broadcastInDim S50000 ![] bcast_S_S50000 (constant (F := Ideal) S_ .f32 0x2B8CBCCC#32))) := by
  show StableHlo.after hostOps0 (W0 m ρ c) (Proc.devRef .tc main_v15) = _
  after_results_simp
  chase
  rfl

theorem cst3_W1 : W1 m ρ c (Proc.devRef .tc main_cst_3) = constant (F := Ideal) S_ .f32 0x00000000#32 := by
  show StableHlo.after hostOps0 (W0 m ρ c) (Proc.devRef .tc main_cst_3) = _
  after_results_simp

/-- After the selection: the inverse square root where the degree is positive, zero elsewhere. The degree is kept as
    one name on both sides, so that the two spellings are compared around it and never through it. -/
theorem v16_W2 : W2 m ρ c (Proc.devRef .tc main_v16) = Cert.Closed.dis (m ((c : Thread nD τ).loc main_arg1)) := by
  have h12 := v12_W1 m ρ c
  have h15 := v15_W1 m ρ c
  have h3 := cst3_W1 m ρ c
  show StableHlo.after hostOps0_1 (W1 m ρ c) (Proc.devRef .tc main_v16) = _
  generalize W1 m ρ c = V at h12 h15 h3 ⊢
  after_results_simp
  rw [h12, h15, h3]
  unfold Cert.Closed.dis
  generalize Cert.Closed.deg (m ((c : Thread nD τ).loc main_arg1)) = d
  rfl

/-- The normalisation: the two gathers of the inverse square roots, at the wrapped source and target indices,
    multiplied. The three tables are kept as names on both sides. -/
theorem v31_W3 : W3 m ρ c (Proc.devRef .tc main_v31) = Cert.Closed.norm (m ((c : Thread nD τ).loc main_arg1)) := by
  have h16 := v16_W2 m ρ c
  have h5 := v5_W2 m ρ c
  have h6 := v6_W2 m ρ c
  show StableHlo.after hostOps0_2 (W2 m ρ c) (Proc.devRef .tc main_v31) = _
  generalize W2 m ρ c = V at h16 h5 h6 ⊢
  after_results_simp
  rw [h16, h5, h6]
  unfold Cert.Closed.norm Cert.Closed.col Cert.Closed.wrap
  generalize Cert.Closed.dis (m ((c : Thread nD τ).loc main_arg1)) = d
  generalize Cert.Closed.srcIdx (m ((c : Thread nD τ).loc main_arg1)) = s
  generalize Cert.Closed.dstIdx (m ((c : Thread nD τ).loc main_arg1)) = t
  rfl

end Cert.KernelIdeal.ValueK

end
-- ==== Proof.KernelValue.lean ====
/-
  The idealized kernel program's result as one function of its arguments. Going back from the result buffer: the
  head region's output is the specification's head of its six inputs; those are the sums over each graph's nodes of
  the fusion region's output, the node counts as a column, and the head's weights and biases; the fusion region's
  output is the specification's fusion layer of the two convolutions' outputs and the fusion weights' four pieces;
  the convolutions' outputs are the two halves, plus biases, of the message passing on the projection region's
  output; and that output is the specification's product of the node features and the two weights side by side. Each
  step reads one host stretch or one region's output; the arguments' buffers hold their launch contents throughout.
-/
import proofs.«176967_j76450417868973_1_alg».proof.Proof.Gen.KernelIdeal.Frame
import proofs.«176967_j76450417868973_1_alg».proof.Proof.Region0
import proofs.«176967_j76450417868973_1_alg».proof.Proof.Region1
import proofs.«176967_j76450417868973_1_alg».proof.Proof.Region2
import proofs.«176967_j76450417868973_1_alg».proof.Proof.Closed
import proofs.«176967_j76450417868973_1_alg».proof.Proof.KernelArgs
import proofs.«176967_j76450417868973_1_alg».proof.Proof.KernelEntry
import Idealize.ShloMosaic.Lib.StableHlo.Run
import Idealize.ShloMosaic.PureOps.Ideal

noncomputable section

namespace Cert.KernelIdeal.ValueK

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The message indices at region 0's entry: not written since they were computed -/

theorem v5_W3 : W3 m ρ c (Proc.devRef .tc main_v5) = Cert.Closed.srcIdx (m ((c : Thread nD τ).loc main_arg1)) :=
  calc W3 m ρ c (Proc.devRef .tc main_v5)
    _ = W2 m ρ c (Proc.devRef .tc main_v5) := by unwritten
    _ = Cert.Closed.srcIdx (m ((c : Thread nD τ).loc main_arg1)) := v5_W2 m ρ c

theorem v6_W3 : W3 m ρ c (Proc.devRef .tc main_v6) = Cert.Closed.dstIdx (m ((c : Thread nD τ).loc main_arg1)) :=
  calc W3 m ρ c (Proc.devRef .tc main_v6)
    _ = W2 m ρ c (Proc.devRef .tc main_v6) := by unwritten
    _ = Cert.Closed.dstIdx (m ((c : Thread nD τ).loc main_arg1)) := v6_W2 m ρ c

/-! ## Region 0's exit -/

theorem v33_W4 : W4 m ρ c (Proc.devRef .tc main_v33) = Cert.Closed.wide (m ((c : Thread nD τ).loc main_arg0)) (m ((c : Thread nD τ).loc main_arg3)) (m ((c : Thread nD τ).loc main_arg5)) := by
  refine (W4_arr m ρ c 2).trans ((Cert.KernelIdeal.Regions.final0 (V3 m ρ) c).trans ?_)
  show Cert.Spec.proj (W3 m ρ c (Proc.devRef .tc main_arg0)) (W3 m ρ c (Proc.devRef .tc main_v32)) = _
  rw [arg0_W3 m ρ c, v32_W3 m ρ c]
  rfl

theorem v5_W4 : W4 m ρ c (Proc.devRef .tc main_v5) = Cert.Closed.srcIdx (m ((c : Thread nD τ).loc main_arg1)) :=
  (W4_of_ne m ρ c main_v5 (by decide)).trans (v5_W3 m ρ c)

theorem v6_W4 : W4 m ρ c (Proc.devRef .tc main_v6) = Cert.Closed.dstIdx (m ((c : Thread nD τ).loc main_arg1)) :=
  (W4_of_ne m ρ c main_v6 (by decide)).trans (v6_W3 m ρ c)

theorem v31_W4 : W4 m ρ c (Proc.devRef .tc main_v31) = Cert.Closed.norm (m ((c : Thread nD τ).loc main_arg1)) :=
  (W4_of_ne m ρ c main_v31 (by decide)).trans (v31_W3 m ρ c)

/-! ## Region 1's entry: the two convolutions' outputs, the fusion weights' four pieces and the fusion bias -/

set_option maxHeartbeats 4000000 in
theorem v50_W5 : W5 m ρ c (Proc.devRef .tc main_v50) = Cert.Closed.xS (m ((c : Thread nD τ).loc main_arg0)) (m ((c : Thread nD τ).loc main_arg1)) (m ((c : Thread nD τ).loc main_arg3)) (m ((c : Thread nD τ).loc main_arg5)) (m ((c : Thread nD τ).loc main_arg4)) := by
  show StableHlo.after hostOps1 (W4 m ρ c) (Proc.devRef .tc main_v50) = _
  after_results_simp
  rw [v33_W4 m ρ c, v5_W4 m ρ c, v6_W4 m ρ c, v31_W4 m ρ c, arg4_W4 m ρ c]
  rfl

set_option maxHeartbeats 4000000 in
theorem v54_W5 : W5 m ρ c (Proc.devRef .tc main_v54) = Cert.Closed.xD (m ((c : Thread nD τ).loc main_arg0)) (m ((c : Thread nD τ).loc main_arg1)) (m ((c : Thread nD τ).loc main_arg3)) (m ((c : Thread nD τ).loc main_arg5)) (m ((c : Thread nD τ).loc main_arg6)) := by
  show StableHlo.after hostOps1 (W4 m ρ c) (Proc.devRef .tc main_v54) = _
  after_results_simp
  rw [v33_W4 m ρ c, v5_W4 m ρ c, v6_W4 m ρ c, v31_W4 m ρ c, arg6_W4 m ρ c]
  rfl

set_option maxHeartbeats 4000000 in
theorem v55_W5 : W5 m ρ c (Proc.devRef .tc main_v55)
    = extractStridedSlice S128x128 ![0, 0] (m ((c : Thread nD τ).loc main_arg7)) slices_S512x128_S128x128_0_0 := by
  show StableHlo.after hostOps1 (W4 m ρ c) (Proc.devRef .tc main_v55) = _
  after_results_simp
  rw [arg7_W4 m ρ c]

set_option maxHeartbeats 4000000 in
theorem v56_W5 : W5 m ρ c (Proc.devRef .tc main_v56)
    = extractStridedSlice S128x128 ![128, 0] (m ((c : Thread nD τ).loc main_arg7)) slices_S512x128_S128x128_128_0 := by
  show StableHlo.after hostOps1 (W4 m ρ c) (Proc.devRef .tc main_v56) = _
  after_results_simp
  rw [arg7_W4 m ρ c]

set_option maxHeartbeats 4000000 in
theorem v57_W5 : W5 m ρ c (Proc.devRef .tc main_v57)
    = extractStridedSlice S128x128 ![256, 0] (m ((c : Thread nD τ).loc main_arg7)) slices_S512x128_S128x128_256_0 := by
  show StableHlo.after hostOps1 (W4 m ρ c) (Proc.devRef .tc main_v57) = _
  after_results_simp
  rw [arg7_W4 m ρ c]

set_option maxHeartbeats 4000000 in
theorem v58_W5 : W5 m ρ c (Proc.devRef .tc main_v58)
    = extractStridedSlice S128x128 ![384, 0] (m ((c : Thread nD τ).loc main_arg7)) slices_S512x128_S128x128_384_0 := by
  show StableHlo.after hostOps1 (W4 m ρ c) (Proc.devRef .tc main_v58) = _
  after_results_simp
  rw [arg7_W4 m ρ c]

set_option maxHeartbeats 4000000 in
theorem v59_W5 : W5 m ρ c (Proc.devRef .tc main_v59) = shapeCast S1x128 (m ((c : Thread nD τ).loc main_arg8)) shapeCasts_S128_S1x128 := by
  show StableHlo.after hostOps1 (W4 m ρ c) (Proc.devRef .tc main_v59) = _
  after_results_simp
  rw [arg8_W4 m ρ c]
  rfl

/-! ## Region 1's exit -/

theorem v60_W6 : W6 m ρ c (Proc.devRef .tc main_v60)
    = Cert.Closed.fused (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 7).trans ((Cert.KernelIdeal.Regions.final1 (V5 m ρ) c).trans ?_)
  show Cert.Spec.fuse (W5 m ρ c (Proc.devRef .tc main_v50)) (W5 m ρ c (Proc.devRef .tc main_v54)) (W5 m ρ c (Proc.devRef .tc main_v55)) (W5 m ρ c (Proc.devRef .tc main_v56))
    (W5 m ρ c (Proc.devRef .tc main_v57)) (W5 m ρ c (Proc.devRef .tc main_v58)) (W5 m ρ c (Proc.devRef .tc main_v59)) = _
  rw [v50_W5 m ρ c, v54_W5 m ρ c, v55_W5 m ρ c, v56_W5 m ρ c, v57_W5 m ρ c, v58_W5 m ρ c, v59_W5 m ρ c]
  rfl

/-! ## Region 2's entry: the sums over each graph's nodes, the node counts as a column, the head's biases as rows -/

theorem v67_W7 : W7 m ρ c (Proc.devRef .tc main_v67)
    = Cert.Closed.pooled (m ((c : Thread nD τ).loc main_arg2)) (Cert.Closed.fused (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W6 m ρ c) (Proc.devRef .tc main_v67) = _
  after_results
  rw [arg2_W6 m ρ c, v60_W6 m ρ c]
  rfl

theorem v68_W7 : W7 m ρ c (Proc.devRef .tc main_v68) = shapeCast S512x1 (Cert.Closed.counts (m ((c : Thread nD τ).loc main_arg2))) shapeCasts_S512_S512x1 := by
  show StableHlo.after hostOps2 (W6 m ρ c) (Proc.devRef .tc main_v68) = _
  after_results
  rw [arg2_W6 m ρ c]
  rfl

theorem v69_W7 : W7 m ρ c (Proc.devRef .tc main_v69) = shapeCast S1x128 (m ((c : Thread nD τ).loc main_arg10)) shapeCasts_S128_S1x128 := by
  show StableHlo.after hostOps2 (W6 m ρ c) (Proc.devRef .tc main_v69) = _
  after_results
  rw [arg10_W6 m ρ c]
  rfl

theorem v70_W7 : W7 m ρ c (Proc.devRef .tc main_v70) = shapeCast S1x2 (m ((c : Thread nD τ).loc main_arg12)) shapeCasts_S2_S1x2 := by
  show StableHlo.after hostOps2 (W6 m ρ c) (Proc.devRef .tc main_v70) = _
  after_results
  rw [arg12_W6 m ρ c]
  rfl

/-! ## The result -/

/-- The idealized kernel program's result buffer at the last boundary is the closed form of its thirteen
    arguments: the head region's output is the specification's head of its inputs, each input is the previous
    stretch's operations of the fusion region's output and of the arguments, and so on back to the launch. -/
theorem kernel_value :
    W8 m ρ c (Proc.devRef .tc main_v71)
      = Cert.Closed.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 6).trans ((Cert.KernelIdeal.Regions.final2 (V7 m ρ) c).trans ?_)
  show Cert.Spec.head (W7 m ρ c (Proc.devRef .tc main_v67)) (W7 m ρ c (Proc.devRef .tc main_v68)) (W7 m ρ c (Proc.devRef .tc main_arg9)) (W7 m ρ c (Proc.devRef .tc main_v69))
    (W7 m ρ c (Proc.devRef .tc main_arg11)) (W7 m ρ c (Proc.devRef .tc main_v70)) = _
  rw [v67_W7 m ρ c, v68_W7 m ρ c, arg9_W7 m ρ c, v69_W7 m ρ c, arg11_W7 m ρ c, v70_W7 m ρ c]
  rfl

end Cert.KernelIdeal.ValueK

end
-- ==== Proof.HeadAlg.lean ====
/-
  The reference's head against the specification's, over arbitrary arrays: both divide each graph's pooled sum by its
  node count (at least one), apply a linear layer with its bias, the rectifier, and a second linear layer with its
  bias. The reference spreads the counts along the lanes and the biases down the rows; the specification reads the
  counts as a column and the biases as rows. A spread array read at an index is the source at the matching
  coordinates, a recast vector keeps its row-major positions, and a matrix product read at an index is the sum of
  products over the shared axis; element by element the two sides are the same nested sum.
-/
import proofs.«176967_j76450417868973_1_alg».proof.Proof.Gen.ReferenceIdeal
import proofs.«176967_j76450417868973_1_alg».proof.Proof.Gen.KernelIdeal
import proofs.«176967_j76450417868973_1_alg».proof.Proof.Spec
import Idealize.ShloMosaic.Lib.ValueIdx
import Idealize.ShloMosaic.Lib.Pipeline.Value
import Idealize.ShloMosaic.PureOps.Ideal.Laws

noncomputable section

open scoped BigOperators

namespace Cert.Bridge

open Cert.ReferenceIdeal Cert.ReferenceIdeal.Gen Idealize.ShloMosaic Idealize.ShloMosaic.ValueIdx

/-! The index functions of the reference's product `S512x128 · S128x128`: a result element at row `p`, column `q` meets
    the left factor at row `p` and the right factor at column `q`, both at the contracted position. -/
theorem dot_hidden_apply_l0 (i : S512x128.Idx) (c : dot_S512x128_S128x128_S512x128_1_0_0_1_n_n.contr.Idx) :
    (dot_S512x128_S128x128_S512x128_1_0_0_1_n_n.lhsIdx i c 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem dot_hidden_apply_l1 (i : S512x128.Idx) (c : dot_S512x128_S128x128_S512x128_1_0_0_1_n_n.contr.Idx) :
    (dot_S512x128_S128x128_S512x128_1_0_0_1_n_n.lhsIdx i c 1).val = (c ⟨0, by decide⟩).val :=
  dot_S512x128_S128x128_S512x128_1_0_0_1_n_n.lhsIdx_val_of_single rfl i c
theorem dot_hidden_apply_r0 (i : S512x128.Idx) (c : dot_S512x128_S128x128_S512x128_1_0_0_1_n_n.contr.Idx) :
    (dot_S512x128_S128x128_S512x128_1_0_0_1_n_n.rhsIdx i c 0).val = (c ⟨0, by decide⟩).val :=
  dot_S512x128_S128x128_S512x128_1_0_0_1_n_n.rhsIdx_val_of_single rfl i c
theorem dot_hidden_apply_r1 (i : S512x128.Idx) (c : dot_S512x128_S128x128_S512x128_1_0_0_1_n_n.contr.Idx) :
    (dot_S512x128_S128x128_S512x128_1_0_0_1_n_n.rhsIdx i c 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The reference's matrix product read at row `p` and column `q`: the sum over the shared axis of the products of
    row `p` of the left factor and column `q` of the right one. -/
theorem dot_hidden_apply (a : FVec Ideal S512x128 .f32) (b : FVec Ideal S128x128 .f32) (p : Fin 512) (q : Fin 128) :
    Host.dotGeneral dot_S512x128_S128x128_S512x128_1_0_0_1_n_n none a b (ix2 p q)
      = ∑ k : Fin 128, a (ix2 p k) * b (ix2 k q) := by
  simp only [Host.dotGeneral]
  rw [Ideal.dotGeneral_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k :=
    funext fun d => Fin.ext (by
      match d with
      | ⟨0, _⟩ => exact dot_hidden_apply_l0 _ _
      | ⟨1, _⟩ => exact (dot_hidden_apply_l1 _ _).trans hk)
  have er : dot_S512x128_S128x128_S512x128_1_0_0_1_n_n.rhsIdx (ix2 p q) ((contrEquiv1 dot_S512x128_S128x128_S512x128_1_0_0_1_n_n 128 rfl rfl).symm k) = ix2 k q :=
    funext fun d => Fin.ext (by
      match d with
      | ⟨0, _⟩ => exact (dot_hidden_apply_r0 _ _).trans hk
      | ⟨1, _⟩ => exact dot_hidden_apply_r1 _ _)
  rw [el, er]

/-! The index functions of the reference's product `S512x128 · S128x2`: a result element at row `p`, column `q` meets
    the left factor at row `p` and the right factor at column `q`, both at the contracted position. -/
theorem dot_out_apply_l0 (i : S512x2.Idx) (c : dot_S512x128_S128x2_S512x2_1_0_0_1_n_n.contr.Idx) :
    (dot_S512x128_S128x2_S512x2_1_0_0_1_n_n.lhsIdx i c 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem dot_out_apply_l1 (i : S512x2.Idx) (c : dot_S512x128_S128x2_S512x2_1_0_0_1_n_n.contr.Idx) :
    (dot_S512x128_S128x2_S512x2_1_0_0_1_n_n.lhsIdx i c 1).val = (c ⟨0, by decide⟩).val :=
  dot_S512x128_S128x2_S512x2_1_0_0_1_n_n.lhsIdx_val_of_single rfl i c
theorem dot_out_apply_r0 (i : S512x2.Idx) (c : dot_S512x128_S128x2_S512x2_1_0_0_1_n_n.contr.Idx) :
    (dot_S512x128_S128x2_S512x2_1_0_0_1_n_n.rhsIdx i c 0).val = (c ⟨0, by decide⟩).val :=
  dot_S512x128_S128x2_S512x2_1_0_0_1_n_n.rhsIdx_val_of_single rfl i c
theorem dot_out_apply_r1 (i : S512x2.Idx) (c : dot_S512x128_S128x2_S512x2_1_0_0_1_n_n.contr.Idx) :
    (dot_S512x128_S128x2_S512x2_1_0_0_1_n_n.rhsIdx i c 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The reference's matrix product read at row `p` and column `q`: the sum over the shared axis of the products of
    row `p` of the left factor and column `q` of the right one. -/
theorem dot_out_apply (a : FVec Ideal S512x128 .f32) (b : FVec Ideal S128x2 .f32) (p : Fin 512) (q : Fin 2) :
    Host.dotGeneral dot_S512x128_S128x2_S512x2_1_0_0_1_n_n none a b (ix2 p q)
      = ∑ k : Fin 128, a (ix2 p k) * b (ix2 k q) := by
  simp only [Host.dotGeneral]
  rw [Ideal.dotGeneral_apply, ← Equiv.sum_comp (contrEquiv1 dot_S512x128_S128x2_S512x2_1_0_0_1_n_n 128 rfl rfl).symm]
  refine Finset.sum_congr rfl fun k _ => ?_
  have hk := contrEquiv1_symm_val dot_S512x128_S128x2_S512x2_1_0_0_1_n_n 128 rfl rfl k
  have el : dot_S512x128_S128x2_S512x2_1_0_0_1_n_n.lhsIdx (ix2 p q) ((contrEquiv1 dot_S512x128_S128x2_S512x2_1_0_0_1_n_n 128 rfl rfl).symm k) = ix2 p k :=
    funext fun d => Fin.ext (by
      match d with
      | ⟨0, _⟩ => exact dot_out_apply_l0 _ _
      | ⟨1, _⟩ => exact (dot_out_apply_l1 _ _).trans hk)
  have er : dot_S512x128_S128x2_S512x2_1_0_0_1_n_n.rhsIdx (ix2 p q) ((contrEquiv1 dot_S512x128_S128x2_S512x2_1_0_0_1_n_n 128 rfl rfl).symm k) = ix2 k q :=
    funext fun d => Fin.ext (by
      match d with
      | ⟨0, _⟩ => exact (dot_out_apply_r0 _ _).trans hk
      | ⟨1, _⟩ => exact dot_out_apply_r1 _ _)
  rw [el, er]

/-- A column of 512 entries spread along 128 lanes, read at row `p`: the column's entry at `p`. -/
theorem bc_col_apply {α : Type} (x : S512x1.Idx → α) (p : Fin 512) (l : Fin 128) :
    broadcastInDim S512x128 ![0, 1] bcast_S512x1_S512x128_0_1 x (ix2 p l) = x (ix2 p 0) :=
  broadcastInDim_apply ![0, 1] bcast_S512x1_S512x128_0_1 x (ix2 p l) (ix2 p 0) fun a => by
    match a with
    | ⟨0, _⟩ => show p.val = if (512 : Nat) = 1 then 0 else p.val; rw [if_neg (by decide)]
    | ⟨1, _⟩ => show (0 : Fin 1).val = if (1 : Nat) = 1 then 0 else l.val; rw [if_pos rfl]; rfl

/-- A vector of 512 entries stood up as a column, read at row `p`: its entry at `p`. -/
theorem bc_vec512_apply {α : Type} (x : S512.Idx → α) (p : Fin 512) :
    broadcastInDim S512x1 ![0] bcast_S512_S512x1_0 x (ix2 p 0) = x (ix1 p) :=
  broadcastInDim_apply ![0] bcast_S512_S512x1_0 x (ix2 p 0) (ix1 p) fun a => by
    match a with
    | ⟨0, _⟩ => show p.val = if (512 : Nat) = 1 then 0 else p.val; rw [if_neg (by decide)]

/-- A scalar spread over a vector of 512 entries reads the scalar everywhere. -/
theorem bc_scalar512_apply {α : Type} (x : S_.Idx → α) (p : Fin 512) :
    broadcastInDim S512 ![] bcast_S_S512 x (ix1 p) = x ix0 :=
  broadcastInDim_apply ![] bcast_S_S512 x (ix1 p) ix0 fun a => a.elim0

/-- A scalar spread over a 512 × 128 array reads the scalar everywhere. -/
theorem bc_scalar512x128_apply {α : Type} (x : S_.Idx → α) (p : Fin 512) (k : Fin 128) :
    broadcastInDim S512x128 ![] bcast_S_S512x128 x (ix2 p k) = x ix0 :=
  broadcastInDim_apply ![] bcast_S_S512x128 x (ix2 p k) ix0 fun a => a.elim0

/-- A row of 128 entries repeated down 512 rows, read at column `k`: the row's entry at `k`. -/
theorem bc_row128_apply {α : Type} (x : S1x128.Idx → α) (p : Fin 512) (k : Fin 128) :
    broadcastInDim S512x128 ![0, 1] bcast_S1x128_S512x128_0_1 x (ix2 p k) = x (ix2 0 k) :=
  broadcastInDim_apply ![0, 1] bcast_S1x128_S512x128_0_1 x (ix2 p k) (ix2 0 k) fun a => by
    match a with
    | ⟨0, _⟩ => show (0 : Fin 1).val = if (1 : Nat) = 1 then 0 else p.val; rw [if_pos rfl]; rfl
    | ⟨1, _⟩ => show k.val = if (128 : Nat) = 1 then 0 else k.val; rw [if_neg (by decide)]

/-- A vector of 128 entries laid down as a row, read at column `k`: its entry at `k`. -/
theorem bc_vec128_apply {α : Type} (x : S128.Idx → α) (k : Fin 128) :
    broadcastInDim S1x128 ![1] bcast_S128_S1x128_1 x (ix2 0 k) = x (ix1 k) :=
  broadcastInDim_apply ![1] bcast_S128_S1x128_1 x (ix2 0 k) (ix1 k) fun a => by
    match a with
    | ⟨0, _⟩ => show k.val = if (128 : Nat) = 1 then 0 else k.val; rw [if_neg (by decide)]

/-- A row of 2 entries repeated down 512 rows, read at column `q`: the row's entry at `q`. -/
theorem bc_row2_apply {α : Type} (x : S1x2.Idx → α) (p : Fin 512) (q : Fin 2) :
    broadcastInDim S512x2 ![0, 1] bcast_S1x2_S512x2_0_1 x (ix2 p q) = x (ix2 0 q) :=
  broadcastInDim_apply ![0, 1] bcast_S1x2_S512x2_0_1 x (ix2 p q) (ix2 0 q) fun a => by
    match a with
    | ⟨0, _⟩ => show (0 : Fin 1).val = if (1 : Nat) = 1 then 0 else p.val; rw [if_pos rfl]; rfl
    | ⟨1, _⟩ => show q.val = if (2 : Nat) = 1 then 0 else q.val; rw [if_neg (by decide)]

/-- A vector of 2 entries laid down as a row, read at column `q`: its entry at `q`. -/
theorem bc_vec2_apply {α : Type} (x : S2.Idx → α) (q : Fin 2) :
    broadcastInDim S1x2 ![1] bcast_S2_S1x2_1 x (ix2 0 q) = x (ix1 q) :=
  broadcastInDim_apply ![1] bcast_S2_S1x2_1 x (ix2 0 q) (ix1 q) fun a => by
    match a with
    | ⟨0, _⟩ => show q.val = if (2 : Nat) = 1 then 0 else q.val; rw [if_neg (by decide)]

/-- A vector of 512 entries recast as a column keeps its entries: the column's entry at row `p` is the vector's at `p`
    (same row-major position). -/
theorem cast_col_apply {α : Type} (x : S512.Idx → α) (h : S512.ShapeCasts Cert.KernelIdeal.S512x1) (p : Fin 512) :
    shapeCast Cert.KernelIdeal.S512x1 x h (ix2 p 0) = x (ix1 p) :=
  shapeCast_apply x h (ix2 p 0) (ix1 p) (by
    rw [Shape.rowMajor_val_one, Shape.rowMajor_val_two]
    show p.val = p.val * 1 + (0 : Fin 1).val
    show p.val = p.val * 1 + 0
    omega)

/-- A vector of 128 entries recast as a row keeps its entries. -/
theorem cast_row128_apply {α : Type} (x : S128.Idx → α) (h : S128.ShapeCasts Cert.KernelIdeal.S1x128) (k : Fin 128) :
    shapeCast Cert.KernelIdeal.S1x128 x h (ix2 0 k) = x (ix1 k) :=
  shapeCast_apply x h (ix2 0 k) (ix1 k) (by
    rw [Shape.rowMajor_val_one, Shape.rowMajor_val_two]
    show k.val = (0 : Fin 1).val * 128 + k.val
    show k.val = 0 * 128 + k.val
    omega)

/-- A vector of 2 entries recast as a row keeps its entries. -/
theorem cast_row2_apply {α : Type} (x : S2.Idx → α) (h : S2.ShapeCasts Cert.KernelIdeal.S1x2) (q : Fin 2) :
    shapeCast Cert.KernelIdeal.S1x2 x h (ix2 0 q) = x (ix1 q) :=
  shapeCast_apply x h (ix2 0 q) (ix1 q) (by
    rw [Shape.rowMajor_val_one, Shape.rowMajor_val_two]
    show q.val = (0 : Fin 1).val * 2 + q.val
    show q.val = 0 * 2 + q.val
    omega)

/-- The reference's head — divide the pooled sums by the counts (at least one) spread along the lanes, a product with
    the first weights plus the first bias spread down the rows, the maximum with zero, a product with the second
    weights plus the second bias spread down the rows — is the specification's head, the counts read as a column and
    the two biases as rows. Element by element both are the same nested sum. -/
theorem head_ref (P : FVec Ideal S512x128 .f32) (C : FVec Ideal S512 .f32) (w1 : FVec Ideal S128x128 .f32) (b1 : FVec Ideal S128 .f32) (w2 : FVec Ideal S128x2 .f32) (b2 : FVec Ideal S2 .f32) :
    addf (Host.dotGeneral dot_S512x128_S128x2_S512x2_1_0_0_1_n_n none (maximumf (addf (Host.dotGeneral dot_S512x128_S128x128_S512x128_1_0_0_1_n_n none (Host.divf P (broadcastInDim S512x128 ![0, 1] bcast_S512x1_S512x128_0_1 (broadcastInDim S512x1 ![0] bcast_S512_S512x1_0 (maximumf C (broadcastInDim S512 ![] bcast_S_S512 (constant (F := Ideal) S_ .f32 0x3F800000#32)))))) w1) (broadcastInDim S512x128 ![0, 1] bcast_S1x128_S512x128_0_1 (broadcastInDim S1x128 ![1] bcast_S128_S1x128_1 b1))) (broadcastInDim S512x128 ![] bcast_S_S512x128 (constant (F := Ideal) S_ .f32 0x00000000#32))) w2) (broadcastInDim S512x2 ![0, 1] bcast_S1x2_S512x2_0_1 (broadcastInDim S1x2 ![1] bcast_S2_S1x2_1 b2))
      = Cert.Spec.head P (shapeCast Cert.KernelIdeal.S512x1 C Cert.KernelIdeal.Gen.shapeCasts_S512_S512x1) w1 (shapeCast Cert.KernelIdeal.S1x128 b1 Cert.KernelIdeal.Gen.shapeCasts_S128_S1x128) w2 (shapeCast Cert.KernelIdeal.S1x2 b2 Cert.KernelIdeal.Gen.shapeCasts_S2_S1x2) := by
  funext i
  obtain ⟨p, q, rfl⟩ : ∃ (p : Fin 512) (q : Fin 2), i = ix2 p q := ⟨i 0, i 1, eq_ix2 i⟩
  show _ = Cert.Spec.dot (Cert.Spec.hidden P (shapeCast Cert.KernelIdeal.S512x1 C Cert.KernelIdeal.Gen.shapeCasts_S512_S512x1) w1
      (shapeCast Cert.KernelIdeal.S1x128 b1 Cert.KernelIdeal.Gen.shapeCasts_S128_S1x128)) w2 p q
    + shapeCast Cert.KernelIdeal.S1x2 b2 Cert.KernelIdeal.Gen.shapeCasts_S2_S1x2 (ix2 0 q)
  refine (addf_apply _ _ (ix2 p q)).trans (congrArg₂ (· + ·) ?_ ?_)
  · refine (dot_out_apply _ _ p q).trans (Finset.sum_congr rfl fun k _ => congrArg₂ (· * ·) ?_ rfl)
    show max (_ + _) _ = max (_ + shapeCast Cert.KernelIdeal.S1x128 b1 Cert.KernelIdeal.Gen.shapeCasts_S128_S1x128 (ix2 0 k)) Cert.Spec.zero
    refine congrArg₂ max (congrArg₂ (· + ·) ?_ ?_) ?_
    · refine (dot_hidden_apply _ _ p k).trans (Finset.sum_congr rfl fun l _ => congrArg₂ (· * ·) ?_ rfl)
      show Ideal.div (P (ix2 p l)) _
        = Ideal.div (P (ix2 p l)) (max (shapeCast Cert.KernelIdeal.S512x1 C Cert.KernelIdeal.Gen.shapeCasts_S512_S512x1 (ix2 p 0)) Cert.Spec.one)
      refine congrArg (Ideal.div (P (ix2 p l))) ?_
      refine (bc_col_apply _ p l).trans ((bc_vec512_apply _ p).trans ?_)
      show max (C (ix1 p)) _ = _
      exact congrArg₂ max (cast_col_apply C _ p).symm (bc_scalar512_apply _ p)
    · exact (bc_row128_apply _ p k).trans ((bc_vec128_apply b1 k).trans (cast_row128_apply b1 _ k).symm)
    · exact bc_scalar512x128_apply _ p k
  · exact (bc_row2_apply _ p q).trans ((bc_vec2_apply b2 q).trans (cast_row2_apply b2 _ q).symm)

end Cert.Bridge

end
-- ==== Proof.FuseAlg.lean ====
/-
  The reference's fusion layer against the specification's, over arbitrary arrays. The reference joins the four
  pieces `x_s`, `x_d`, `x_s * x_d`, `x_s - x_d` along the columns into a 512-column array and takes one product
  against the 512-row weights; the specification takes four 128-term products, piece `j` against rows `128 j …` of
  the weights, and adds them in order. Entry by entry the 512-term sum is the sum of its four quarters in order, and
  quarter `j` reads piece `j` of the joined array; the bias, spread down the rows on one side and read as a row on the
  other, is the same entry. Sums are only regrouped in order: nothing is distributed or cancelled.
-/
import proofs.«176967_j76450417868973_1_alg».proof.Proof.Gen.ReferenceIdeal
import proofs.«176967_j76450417868973_1_alg».proof.Proof.Gen.KernelIdeal
import proofs.«176967_j76450417868973_1_alg».proof.Proof.Spec
import Idealize.ShloMosaic.Lib.ValueIdx
import Idealize.ShloMosaic.Lib.Pipeline.Value
import Idealize.ShloMosaic.PureOps.Ideal.Laws

noncomputable section

open scoped BigOperators

namespace Cert.Bridge

open Cert.ReferenceIdeal Cert.ReferenceIdeal.Gen Idealize.ShloMosaic Idealize.ShloMosaic.ValueIdx

/-! The index functions of the reference's product `S50000x512 · S512x128`: a result element at row `p`, column `q` meets
    the left factor at row `p` and the right factor at column `q`, both at the contracted position. -/
theorem dot_fuse_apply_l0 (i : S50000x128.Idx) (c : dot_S50000x512_S512x128_S50000x128_1_0_0_1_n_n.contr.Idx) :
    (dot_S50000x512_S512x128_S50000x128_1_0_0_1_n_n.lhsIdx i c 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
theorem dot_fuse_apply_l1 (i : S50000x128.Idx) (c : dot_S50000x512_S512x128_S50000x128_1_0_0_1_n_n.contr.Idx) :
    (dot_S50000x512_S512x128_S50000x128_1_0_0_1_n_n.lhsIdx i c 1).val = (c ⟨0, by decide⟩).val :=
  dot_S50000x512_S512x128_S50000x128_1_0_0_1_n_n.lhsIdx_val_of_single rfl i c
theorem dot_fuse_apply_r0 (i : S50000x128.Idx) (c : dot_S50000x512_S512x128_S50000x128_1_0_0_1_n_n.contr.Idx) :
    (dot_S50000x512_S512x128_S50000x128_1_0_0_1_n_n.rhsIdx i c 0).val = (c ⟨0, by decide⟩).val :=
  dot_S50000x512_S512x128_S50000x128_1_0_0_1_n_n.rhsIdx_val_of_single rfl i c
theorem dot_fuse_apply_r1 (i : S50000x128.Idx) (c : dot_S50000x512_S512x128_S50000x128_1_0_0_1_n_n.contr.Idx) :
    (dot_S50000x512_S512x128_S50000x128_1_0_0_1_n_n.rhsIdx i c 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl

/-- The reference's matrix product read at row `p` and column `q`: the sum over the shared axis of the products of
    row `p` of the left factor and column `q` of the right one. -/
theorem dot_fuse_apply (a : FVec Ideal S50000x512 .f32) (b : FVec Ideal S512x128 .f32) (p : Fin 50000) (q : Fin 128) :
    Host.dotGeneral dot_S50000x512_S512x128_S50000x128_1_0_0_1_n_n none a b (ix2 p q)
      = ∑ k : Fin 512, a (ix2 p k) * b (ix2 k q) := by
  simp only [Host.dotGeneral]
  rw [Ideal.dotGeneral_apply, ← Equiv.sum_comp (contrEquiv1 dot_S50000x512_S512x128_S50000x128_1_0_0_1_n_n 512 rfl rfl).symm]
  refine Finset.sum_congr rfl fun k _ => ?_
  have hk := contrEquiv1_symm_val dot_S50000x512_S512x128_S50000x128_1_0_0_1_n_n 512 rfl rfl k
  have el : dot_S50000x512_S512x128_S50000x128_1_0_0_1_n_n.lhsIdx (ix2 p q) ((contrEquiv1 dot_S50000x512_S512x128_S50000x128_1_0_0_1_n_n 512 rfl rfl).symm k) = ix2 p k :=
    funext fun d => Fin.ext (by
      match d with
      | ⟨0, _⟩ => exact dot_fuse_apply_l0 _ _
      | ⟨1, _⟩ => exact (dot_fuse_apply_l1 _ _).trans hk)
  have er : dot_S50000x512_S512x128_S50000x128_1_0_0_1_n_n.rhsIdx (ix2 p q) ((contrEquiv1 dot_S50000x512_S512x128_S50000x128_1_0_0_1_n_n 512 rfl rfl).symm k) = ix2 k q :=
    funext fun d => Fin.ext (by
      match d with
      | ⟨0, _⟩ => exact (dot_fuse_apply_r0 _ _).trans hk
      | ⟨1, _⟩ => exact dot_fuse_apply_r1 _ _)
  rw [el, er]

/-- A sum over 512 positions is the sum of its four quarters of 128, taken in order. -/
theorem sum_four {M : Type} [AddCommMonoid M] (f : Fin 512 → M) :
    ∑ k : Fin 512, f k
      = (((∑ k : Fin 128, f ⟨0 + k.val, by omega⟩) + ∑ k : Fin 128, f ⟨128 + k.val, by omega⟩)
          + ∑ k : Fin 128, f ⟨256 + k.val, by omega⟩) + ∑ k : Fin 128, f ⟨384 + k.val, by omega⟩ := by
  refine (Fin.sum_univ_add (M := M) (a := 384) (b := 128) f).trans (congrArg₂ (· + ·) ?_ rfl)
  refine (Fin.sum_univ_add (M := M) (a := 256) (b := 128) fun i => f (Fin.castAdd 128 i)).trans (congrArg₂ (· + ·) ?_ rfl)
  refine (Fin.sum_univ_add (M := M) (a := 128) (b := 128) fun i => f (Fin.castAdd 128 (Fin.castAdd 128 i))).trans
    (congrArg₂ (· + ·) ?_ rfl)
  exact Finset.sum_congr rfl fun k _ => congrArg f (Fin.ext (Nat.zero_add _).symm)

/-- Piece 0 of the four pieces joined along the columns holds columns `0 … 127` of the joined array. -/
theorem cat_piece0_apply {α : Type} (x0 x1 x2 x3 : S50000x128.Idx → α)
    (h : Shape.Concatenates [S50000x128, S50000x128, S50000x128, S50000x128] S50000x512 1) (r : Fin 50000) (k : Fin 128) :
    concatenate S50000x512 1 [⟨S50000x128, x0⟩, ⟨S50000x128, x1⟩, ⟨S50000x128, x2⟩, ⟨S50000x128, x3⟩] h
        (ix2 r (⟨0 + k.val, by omega⟩ : Fin 512)) = x0 (ix2 r k) :=
  concatenate_apply_piece (1 : Fin S50000x512.rank) [⟨S50000x128, x0⟩, ⟨S50000x128, x1⟩, ⟨S50000x128, x2⟩, ⟨S50000x128, x3⟩] h
    (ix2 r (⟨0 + k.val, by omega⟩ : Fin 512)) 0 (by show (0 : Nat) < 4; decide) S50000x128 x0 rfl rfl 0 rfl (ix2 r k)
    (fun b hb => by
      match b with
      | ⟨0, _⟩ => rfl
      | ⟨1, _⟩ => exact absurd (Fin.ext rfl) hb)
    rfl

/-- Piece 1 of the four pieces joined along the columns holds columns `128 … 255` of the joined array. -/
theorem cat_piece1_apply {α : Type} (x0 x1 x2 x3 : S50000x128.Idx → α)
    (h : Shape.Concatenates [S50000x128, S50000x128, S50000x128, S50000x128] S50000x512 1) (r : Fin 50000) (k : Fin 128) :
    concatenate S50000x512 1 [⟨S50000x128, x0⟩, ⟨S50000x128, x1⟩, ⟨S50000x128, x2⟩, ⟨S50000x128, x3⟩] h
        (ix2 r (⟨128 + k.val, by omega⟩ : Fin 512)) = x1 (ix2 r k) :=
  concatenate_apply_piece (1 : Fin S50000x512.rank) [⟨S50000x128, x0⟩, ⟨S50000x128, x1⟩, ⟨S50000x128, x2⟩, ⟨S50000x128, x3⟩] h
    (ix2 r (⟨128 + k.val, by omega⟩ : Fin 512)) 1 (by show (1 : Nat) < 4; decide) S50000x128 x1 rfl rfl 128 rfl (ix2 r k)
    (fun b hb => by
      match b with
      | ⟨0, _⟩ => rfl
      | ⟨1, _⟩ => exact absurd (Fin.ext rfl) hb)
    rfl

/-- Piece 2 of the four pieces joined along the columns holds columns `256 … 383` of the joined array. -/
theorem cat_piece2_apply {α : Type} (x0 x1 x2 x3 : S50000x128.Idx → α)
    (h : Shape.Concatenates [S50000x128, S50000x128, S50000x128, S50000x128] S50000x512 1) (r : Fin 50000) (k : Fin 128) :
    concatenate S50000x512 1 [⟨S50000x128, x0⟩, ⟨S50000x128, x1⟩, ⟨S50000x128, x2⟩, ⟨S50000x128, x3⟩] h
        (ix2 r (⟨256 + k.val, by omega⟩ : Fin 512)) = x2 (ix2 r k) :=
  concatenate_apply_piece (1 : Fin S50000x512.rank) [⟨S50000x128, x0⟩, ⟨S50000x128, x1⟩, ⟨S50000x128, x2⟩, ⟨S50000x128, x3⟩] h
    (ix2 r (⟨256 + k.val, by omega⟩ : Fin 512)) 2 (by show (2 : Nat) < 4; decide) S50000x128 x2 rfl rfl 256 rfl (ix2 r k)
    (fun b hb => by
      match b with
      | ⟨0, _⟩ => rfl
      | ⟨1, _⟩ => exact absurd (Fin.ext rfl) hb)
    rfl

/-- Piece 3 of the four pieces joined along the columns holds columns `384 … 511` of the joined array. -/
theorem cat_piece3_apply {α : Type} (x0 x1 x2 x3 : S50000x128.Idx → α)
    (h : Shape.Concatenates [S50000x128, S50000x128, S50000x128, S50000x128] S50000x512 1) (r : Fin 50000) (k : Fin 128) :
    concatenate S50000x512 1 [⟨S50000x128, x0⟩, ⟨S50000x128, x1⟩, ⟨S50000x128, x2⟩, ⟨S50000x128, x3⟩] h
        (ix2 r (⟨384 + k.val, by omega⟩ : Fin 512)) = x3 (ix2 r k) :=
  concatenate_apply_piece (1 : Fin S50000x512.rank) [⟨S50000x128, x0⟩, ⟨S50000x128, x1⟩, ⟨S50000x128, x2⟩, ⟨S50000x128, x3⟩] h
    (ix2 r (⟨384 + k.val, by omega⟩ : Fin 512)) 3 (by show (3 : Nat) < 4; decide) S50000x128 x3 rfl rfl 384 rfl (ix2 r k)
    (fun b hb => by
      match b with
      | ⟨0, _⟩ => rfl
      | ⟨1, _⟩ => exact absurd (Fin.ext rfl) hb)
    rfl

/-- A block of 128 rows cut out of the 512-row weights at row offset `o`, read at row `k`: the weights' row `o + k`. -/
theorem slice_rows_apply {α : Type} (Wf : S512x128.Idx → α) (o : Nat) (h : S512x128.Slices ![o, 0] Cert.KernelIdeal.S128x128)
    (ho : o + 128 ≤ 512) (k : Fin 128) (q : Fin 128) :
    extractStridedSlice Cert.KernelIdeal.S128x128 ![o, 0] Wf h (ix2 k q) = Wf (ix2 (⟨o + k.val, by omega⟩ : Fin 512) q) :=
  extractStridedSlice_apply ![o, 0] Wf h (ix2 k q) (ix2 (⟨o + k.val, by omega⟩ : Fin 512) q) fun a => by
    match a with
    | ⟨0, _⟩ => rfl
    | ⟨1, _⟩ => show q.val = 0 + q.val; omega

/-- A row of 128 entries repeated down 50000 rows, read at column `q`: the row's entry at `q`. -/
theorem bc_bias_rows_apply {α : Type} (x : S1x128.Idx → α) (r : Fin 50000) (q : Fin 128) :
    broadcastInDim S50000x128 ![0, 1] bcast_S1x128_S50000x128_0_1 x (ix2 r q) = x (ix2 0 q) :=
  broadcastInDim_apply ![0, 1] bcast_S1x128_S50000x128_0_1 x (ix2 r q) (ix2 0 q) fun a => by
    match a with
    | ⟨0, _⟩ => show (0 : Fin 1).val = if (1 : Nat) = 1 then 0 else r.val; rw [if_pos rfl]; rfl
    | ⟨1, _⟩ => show q.val = if (128 : Nat) = 1 then 0 else q.val; rw [if_neg (by decide)]

/-- A vector of 128 entries laid down as a row, read at column `q`: its entry at `q`. -/
theorem bc_bias_vec_apply {α : Type} (x : S128.Idx → α) (q : Fin 128) :
    broadcastInDim S1x128 ![1] bcast_S128_S1x128_1 x (ix2 0 q) = x (ix1 q) :=
  broadcastInDim_apply ![1] bcast_S128_S1x128_1 x (ix2 0 q) (ix1 q) fun a => by
    match a with
    | ⟨0, _⟩ => show q.val = if (128 : Nat) = 1 then 0 else q.val; rw [if_neg (by decide)]

/-- A vector of 128 entries recast as a row keeps its entries. -/
theorem cast_bias_apply {α : Type} (x : S128.Idx → α) (h : S128.ShapeCasts Cert.KernelIdeal.S1x128) (q : Fin 128) :
    shapeCast Cert.KernelIdeal.S1x128 x h (ix2 0 q) = x (ix1 q) :=
  shapeCast_apply x h (ix2 0 q) (ix1 q) (by
    rw [Shape.rowMajor_val_one, Shape.rowMajor_val_two]
    show q.val = (0 : Fin 1).val * 128 + q.val
    show q.val = 0 * 128 + q.val
    omega)

/-- The reference's fusion layer — the four pieces `x_s`, `x_d`, `x_s * x_d`, `x_s - x_d` joined along the columns,
    one product against the 512-row weights, plus the bias spread down the rows — is the specification's: the
    512-term sum of each entry splits into its four quarters, quarter `j` meeting piece `j` and rows `128 j …` of the
    weights. Only the order of the quarters is used; no term moves across another. -/
theorem fuse_ref (a b : FVec Ideal S50000x128 .f32) (Wf : FVec Ideal S512x128 .f32) (bf : FVec Ideal S128 .f32) :
    addf (Host.dotGeneral dot_S50000x512_S512x128_S50000x128_1_0_0_1_n_n none (concatenate S50000x512 1 [⟨S50000x128, a⟩, ⟨S50000x128, b⟩, ⟨S50000x128, mulf a b⟩, ⟨S50000x128, subf a b⟩] concatenates_S50000x128_S50000x128_S50000x128_S50000x128_S50000x512_d1) Wf) (broadcastInDim S50000x128 ![0, 1] bcast_S1x128_S50000x128_0_1 (broadcastInDim S1x128 ![1] bcast_S128_S1x128_1 bf))
      = Cert.Spec.fuse a b (extractStridedSlice Cert.KernelIdeal.S128x128 ![0, 0] Wf Cert.KernelIdeal.Gen.slices_S512x128_S128x128_0_0) (extractStridedSlice Cert.KernelIdeal.S128x128 ![128, 0] Wf Cert.KernelIdeal.Gen.slices_S512x128_S128x128_128_0) (extractStridedSlice Cert.KernelIdeal.S128x128 ![256, 0] Wf Cert.KernelIdeal.Gen.slices_S512x128_S128x128_256_0) (extractStridedSlice Cert.KernelIdeal.S128x128 ![384, 0] Wf Cert.KernelIdeal.Gen.slices_S512x128_S128x128_384_0) (shapeCast Cert.KernelIdeal.S1x128 bf Cert.KernelIdeal.Gen.shapeCasts_S128_S1x128) := by
  funext i
  obtain ⟨r, q, rfl⟩ : ∃ (r : Fin 50000) (q : Fin 128), i = ix2 r q := ⟨i 0, i 1, eq_ix2 i⟩
  show _ = ((((∑ k : Fin 128, a (ix2 r k) * (extractStridedSlice Cert.KernelIdeal.S128x128 ![0, 0] Wf Cert.KernelIdeal.Gen.slices_S512x128_S128x128_0_0) (ix2 k q))
        + ∑ k : Fin 128, b (ix2 r k) * (extractStridedSlice Cert.KernelIdeal.S128x128 ![128, 0] Wf Cert.KernelIdeal.Gen.slices_S512x128_S128x128_128_0) (ix2 k q))
      + ∑ k : Fin 128, (a (ix2 r k) * b (ix2 r k)) * (extractStridedSlice Cert.KernelIdeal.S128x128 ![256, 0] Wf Cert.KernelIdeal.Gen.slices_S512x128_S128x128_256_0) (ix2 k q))
    + ∑ k : Fin 128, (a (ix2 r k) - b (ix2 r k)) * (extractStridedSlice Cert.KernelIdeal.S128x128 ![384, 0] Wf Cert.KernelIdeal.Gen.slices_S512x128_S128x128_384_0) (ix2 k q))
    + (shapeCast Cert.KernelIdeal.S1x128 bf Cert.KernelIdeal.Gen.shapeCasts_S128_S1x128) (ix2 0 q)
  refine (addf_apply _ _ (ix2 r q)).trans (congrArg₂ (· + ·) ?_ ?_)
  · refine (dot_fuse_apply _ _ r q).trans ((sum_four _).trans ?_)
    refine congrArg₂ (· + ·) (congrArg₂ (· + ·) (congrArg₂ (· + ·) ?_ ?_) ?_) ?_
    · exact Finset.sum_congr rfl fun k _ => congrArg₂ (· * ·)
        (cat_piece0_apply a b (mulf a b) (subf a b) _ r k) (slice_rows_apply Wf 0 _ (by decide) k q).symm
    · exact Finset.sum_congr rfl fun k _ => congrArg₂ (· * ·)
        (cat_piece1_apply a b (mulf a b) (subf a b) _ r k) (slice_rows_apply Wf 128 _ (by decide) k q).symm
    · exact Finset.sum_congr rfl fun k _ => congrArg₂ (· * ·)
        ((cat_piece2_apply a b (mulf a b) (subf a b) _ r k).trans (mulf_apply a b (ix2 r k))) (slice_rows_apply Wf 256 _ (by decide) k q).symm
    · exact Finset.sum_congr rfl fun k _ => congrArg₂ (· * ·)
        ((cat_piece3_apply a b (mulf a b) (subf a b) _ r k).trans (subf_apply a b (ix2 r k))) (slice_rows_apply Wf 384 _ (by decide) k q).symm
  · exact (bc_bias_rows_apply _ r q).trans ((bc_bias_vec_apply bf q).trans (cast_bias_apply bf _ q).symm)

end Cert.Bridge

end
-- ==== Proof.ConvIdx.lean ====
/-
  Scatter-add and gather, read at an index, for the dimension numbers of this network's graph convolution: the
  messages are rows (one per edge, self loops included) of a node table, gathered by the edge's source, scaled, and
  summed into the row of the edge's target.

  A gather of rows reads, at (edge e, column c), the table at (the source index of e clamped into the table, c).
  A scatter-add of rows is, at (node n, column q), the operand's entry plus the sum over the edges whose target index
  is exactly n (an index outside the table drops the row) of the update's entry at (e, q): the result index of update
  element (e, c) is (target of e, c), so only column q contributes, once per such edge.
-/
import proofs.«176967_j76450417868973_1_alg».proof.Proof.Gen.ReferenceIdeal
import proofs.«176967_j76450417868973_1_alg».proof.Proof.Gen.KernelIdeal
import Idealize.ShloMosaic.PureOps.Ideal
import Idealize.ShloMosaic.Lib.ValueIdx

noncomputable section

open scoped BigOperators

namespace Cert.Bridge

open Idealize.ShloMosaic Idealize.ShloMosaic.ValueIdx

/-- An update element lands at `i` exactly when, on every axis, its start (read signed) plus its window coordinate
    is `i`'s coordinate: the in-range test is then automatic. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro H a
      have ha := congrArg Fin.val (congrFun (Option.some.inj H) a)
      simp only at ha
      have := (h a).1
      omega
    · intro H
      refine congrArg some (funext fun a => Fin.ext ?_)
      show (d.start j idx a + (d.window j a : ℤ)).toNat = (i a).val
      rw [H a]; exact Int.toNat_natCast _
  · next h =>
    constructor
    · intro H; exact absurd H (by simp)
    · intro H
      exact absurd (fun a => by rw [H a]; exact ⟨Int.natCast_nonneg _, by exact_mod_cast (i a).isLt⟩) h

/-! ## The 256-column records -/

/-- The scatter's dimension numbers: rows of 256 columns summed into a table of 50000 rows. -/
abbrev scK : ScatterDims Cert.KernelIdeal.S50000x256 Cert.KernelIdeal.S650000x1 Cert.KernelIdeal.S650000x256 := Cert.KernelIdeal.scatter_S50000x256_S650000x1_S650000x256_1_0_0_1
/-- The gather's dimension numbers: rows of 256 columns read out of a table of 50000 rows. -/
abbrev gaK : GatherDims Cert.KernelIdeal.S50000x256 Cert.KernelIdeal.S650000x1 Cert.KernelIdeal.S650000x256 := Cert.KernelIdeal.gather_S50000x256_S650000x1_S650000x256_1_0_n_n_0_1_1256

/-- The row start of update element (e, c) is the signed index word of edge e. -/
theorem scK_start0 (idx : IVec Cert.KernelIdeal.S650000x1 32) (e : Fin 650000) (c : Fin 256) :
    scK.start (ix2 e c) idx (0 : Fin 2) = (idx (ix2 e (0 : Fin 1))).toInt := by
  unfold ScatterDims.start
  rw [dif_pos (show (0 : Fin 2) ∈ scK.scatterDimsToOperandDims by decide)]
  refine congrArg (fun z => (idx z).toInt) (funext fun b => Fin.ext ?_)
  match b with
  | ⟨0, _⟩ => rfl
  | ⟨1, _⟩ => rfl
/-- No index names the column axis: its start is zero. -/
theorem scK_start1 (idx : IVec Cert.KernelIdeal.S650000x1 32) (e : Fin 650000) (c : Fin 256) :
    scK.start (ix2 e c) idx (1 : Fin 2) = 0 := by
  unfold ScatterDims.start
  rw [dif_neg (show ¬(1 : Fin 2) ∈ scK.scatterDimsToOperandDims by decide)]
/-- The row axis is inserted: no window coordinate there. -/
theorem scK_window0 (e : Fin 650000) (c : Fin 256) : scK.window (ix2 e c) (0 : Fin 2) = 0 := by
  unfold ScatterDims.window
  rw [dif_neg (show ¬(0 : Fin 2) ∈ scK.sKept by decide)]
/-- The column axis carries the update's column. -/
theorem scK_window1 (e : Fin 650000) (c : Fin 256) : scK.window (ix2 e c) (1 : Fin 2) = c.val := by
  unfold ScatterDims.window
  rw [dif_pos (show (1 : Fin 2) ∈ scK.sKept by decide)]
  rfl

/-- Update element (e, c) lands at (n, q) exactly when edge e's index word is n and c is q. -/
theorem scK_key (idx : IVec Cert.KernelIdeal.S650000x1 32) (e : Fin 650000) (c : Fin 256) (n : Fin 50000) (q : Fin 256) :
    scK.resultIdx? (ix2 e c) idx = some (ix2 n q) ↔ (idx (ix2 e (0 : Fin 1))).toInt = (n.val : ℤ) ∧ c = q := by
  rw [resultIdx?_eq_some_iff]
  constructor
  · intro H
    have h0 := H (0 : Fin 2)
    have h1 := H (1 : Fin 2)
    rw [scK_start0, scK_window0] at h0
    rw [scK_start1, scK_window1] at h1
    have h0' : (idx (ix2 e (0 : Fin 1))).toInt + ((0 : ℕ) : ℤ) = (n.val : ℤ) := h0
    have h1' : (0 : ℤ) + (c.val : ℤ) = (q.val : ℤ) := h1
    exact ⟨by omega, Fin.ext (by omega)⟩
  · rintro ⟨h0, rfl⟩ a
    match a with
    | ⟨0, _⟩ =>
      show scK.start (ix2 e c) idx (0 : Fin 2) + (scK.window (ix2 e c) (0 : Fin 2) : ℤ) = (n.val : ℤ)
      rw [scK_start0, scK_window0, h0]; simp
    | ⟨1, _⟩ =>
      show scK.start (ix2 e c) idx (1 : Fin 2) + (scK.window (ix2 e c) (1 : Fin 2) : ℤ) = (c.val : ℤ)
      rw [scK_start1, scK_window1]; simp

/-- THE SCATTER-ADD AT (n, q): the operand's entry plus, over the edges whose index word is n, the update's entry at
    the edge and column q. -/
theorem scK_apply (x : FVec Ideal Cert.KernelIdeal.S50000x256 .f32) (idx : IVec Cert.KernelIdeal.S650000x1 32) (upd : FVec Ideal Cert.KernelIdeal.S650000x256 .f32)
    (n : Fin 50000) (q : Fin 256) :
    Host.scatterAdd scK x idx upd (ix2 n q)
      = x (ix2 n q) + ∑ e : Fin 650000, if (idx (ix2 e (0 : Fin 1))).toInt = (n.val : ℤ) then upd (ix2 e q) else 0 := by
  show Ideal.hostScatterAdd scK x idx upd (ix2 n q) = _
  unfold Ideal.hostScatterAdd
  refine congrArg (x (ix2 n q) + ·) ?_
  rw [Finset.sum_filter]
  refine (sum_idx2 _).trans (Finset.sum_congr rfl fun e _ => ?_)
  simp only [scK_key]
  by_cases hI : (idx (ix2 e (0 : Fin 1))).toInt = (n.val : ℤ)
  · simp [hI]
  · simp [hI]

/-- THE GATHER AT (e, c): the table at (edge e's index word, read signed and clamped into the table, c). -/
theorem gaK_apply (h : FVec Ideal Cert.KernelIdeal.S50000x256 .f32) (idx : IVec Cert.KernelIdeal.S650000x1 32) (e : Fin 650000) (c : Fin 256) :
    Host.gather gaK h idx (ix2 e c)
      = h (ix2 (⟨min (idx (ix2 e (0 : Fin 1))).toInt.toNat 49999, by omega⟩ : Fin 50000) c) := by
  unfold Host.gather
  refine congrArg h (funext fun a => Fin.ext ?_)
  match a with
  | ⟨0, _⟩ =>
    show gaK.start (ix2 e c) idx (0 : Fin 2) + gaK.batchCoord (ix2 e c) (0 : Fin 2) + gaK.offCoord (ix2 e c) (0 : Fin 2)
      = min (idx (ix2 e (0 : Fin 1))).toInt.toNat 49999
    rw [GatherDims.batchCoord_eq_zero gaK (ix2 e c) (0 : Fin 2) (by decide),
      GatherDims.offCoord_eq_zero gaK (ix2 e c) (0 : Fin 2) (by decide)]
    simp only [Nat.add_zero]
    unfold GatherDims.start
    rw [dif_pos (show (0 : Fin 2) ∈ gaK.startIndexMap by decide)]
    have hsi : gaK.siIdx (ix2 e c) ⟨List.idxOf (0 : Fin 2) gaK.startIndexMap,
        List.idxOf_lt_length_iff.2 (show (0 : Fin 2) ∈ gaK.startIndexMap by decide)⟩ = ix2 e (0 : Fin 1) := by
      funext b; refine Fin.ext ?_
      match b with
      | ⟨0, _⟩ => rfl
      | ⟨1, _⟩ => rfl
    rw [hsi]
    rfl
  | ⟨1, _⟩ =>
    show gaK.start (ix2 e c) idx (1 : Fin 2) + gaK.batchCoord (ix2 e c) (1 : Fin 2) + gaK.offCoord (ix2 e c) (1 : Fin 2) = c.val
    rw [GatherDims.batchCoord_eq_zero gaK (ix2 e c) (1 : Fin 2) (by decide)]
    unfold GatherDims.start GatherDims.offCoord
    rw [dif_neg (show ¬(1 : Fin 2) ∈ gaK.startIndexMap by decide), dif_pos (show (1 : Fin 2) ∈ gaK.sKept by decide)]
    simp only [Nat.zero_add, Nat.add_zero]
    rfl

/-! ## The 128-column records -/

/-- The scatter's dimension numbers: rows of 128 columns summed into a table of 50000 rows. -/
abbrev scR : ScatterDims Cert.ReferenceIdeal.S50000x128 Cert.ReferenceIdeal.S650000x1 Cert.ReferenceIdeal.S650000x128 := Cert.ReferenceIdeal.scatter_S50000x128_S650000x1_S650000x128_1_0_0_1
/-- The gather's dimension numbers: rows of 128 columns read out of a table of 50000 rows. -/
abbrev gaR : GatherDims Cert.ReferenceIdeal.S50000x128 Cert.ReferenceIdeal.S650000x1 Cert.ReferenceIdeal.S650000x128 := Cert.ReferenceIdeal.gather_S50000x128_S650000x1_S650000x128_1_0_n_n_0_1_1128

/-- The row start of update element (e, c) is the signed index word of edge e. -/
theorem scR_start0 (idx : IVec Cert.ReferenceIdeal.S650000x1 32) (e : Fin 650000) (c : Fin 128) :
    scR.start (ix2 e c) idx (0 : Fin 2) = (idx (ix2 e (0 : Fin 1))).toInt := by
  unfold ScatterDims.start
  rw [dif_pos (show (0 : Fin 2) ∈ scR.scatterDimsToOperandDims by decide)]
  refine congrArg (fun z => (idx z).toInt) (funext fun b => Fin.ext ?_)
  match b with
  | ⟨0, _⟩ => rfl
  | ⟨1, _⟩ => rfl
/-- No index names the column axis: its start is zero. -/
theorem scR_start1 (idx : IVec Cert.ReferenceIdeal.S650000x1 32) (e : Fin 650000) (c : Fin 128) :
    scR.start (ix2 e c) idx (1 : Fin 2) = 0 := by
  unfold ScatterDims.start
  rw [dif_neg (show ¬(1 : Fin 2) ∈ scR.scatterDimsToOperandDims by decide)]
/-- The row axis is inserted: no window coordinate there. -/
theorem scR_window0 (e : Fin 650000) (c : Fin 128) : scR.window (ix2 e c) (0 : Fin 2) = 0 := by
  unfold ScatterDims.window
  rw [dif_neg (show ¬(0 : Fin 2) ∈ scR.sKept by decide)]
/-- The column axis carries the update's column. -/
theorem scR_window1 (e : Fin 650000) (c : Fin 128) : scR.window (ix2 e c) (1 : Fin 2) = c.val := by
  unfold ScatterDims.window
  rw [dif_pos (show (1 : Fin 2) ∈ scR.sKept by decide)]
  rfl

/-- Update element (e, c) lands at (n, q) exactly when edge e's index word is n and c is q. -/
theorem scR_key (idx : IVec Cert.ReferenceIdeal.S650000x1 32) (e : Fin 650000) (c : Fin 128) (n : Fin 50000) (q : Fin 128) :
    scR.resultIdx? (ix2 e c) idx = some (ix2 n q) ↔ (idx (ix2 e (0 : Fin 1))).toInt = (n.val : ℤ) ∧ c = q := by
  rw [resultIdx?_eq_some_iff]
  constructor
  · intro H
    have h0 := H (0 : Fin 2)
    have h1 := H (1 : Fin 2)
    rw [scR_start0, scR_window0] at h0
    rw [scR_start1, scR_window1] at h1
    have h0' : (idx (ix2 e (0 : Fin 1))).toInt + ((0 : ℕ) : ℤ) = (n.val : ℤ) := h0
    have h1' : (0 : ℤ) + (c.val : ℤ) = (q.val : ℤ) := h1
    exact ⟨by omega, Fin.ext (by omega)⟩
  · rintro ⟨h0, rfl⟩ a
    match a with
    | ⟨0, _⟩ =>
      show scR.start (ix2 e c) idx (0 : Fin 2) + (scR.window (ix2 e c) (0 : Fin 2) : ℤ) = (n.val : ℤ)
      rw [scR_start0, scR_window0, h0]; simp
    | ⟨1, _⟩ =>
      show scR.start (ix2 e c) idx (1 : Fin 2) + (scR.window (ix2 e c) (1 : Fin 2) : ℤ) = (c.val : ℤ)
      rw [scR_start1, scR_window1]; simp

/-- THE SCATTER-ADD AT (n, q): the operand's entry plus, over the edges whose index word is n, the update's entry at
    the edge and column q. -/
theorem scR_apply (x : FVec Ideal Cert.ReferenceIdeal.S50000x128 .f32) (idx : IVec Cert.ReferenceIdeal.S650000x1 32) (upd : FVec Ideal Cert.ReferenceIdeal.S650000x128 .f32)
    (n : Fin 50000) (q : Fin 128) :
    Host.scatterAdd scR x idx upd (ix2 n q)
      = x (ix2 n q) + ∑ e : Fin 650000, if (idx (ix2 e (0 : Fin 1))).toInt = (n.val : ℤ) then upd (ix2 e q) else 0 := by
  show Ideal.hostScatterAdd scR x idx upd (ix2 n q) = _
  unfold Ideal.hostScatterAdd
  refine congrArg (x (ix2 n q) + ·) ?_
  rw [Finset.sum_filter]
  refine (sum_idx2 _).trans (Finset.sum_congr rfl fun e _ => ?_)
  simp only [scR_key]
  by_cases hI : (idx (ix2 e (0 : Fin 1))).toInt = (n.val : ℤ)
  · simp [hI]
  · simp [hI]

/-- THE GATHER AT (e, c): the table at (edge e's index word, read signed and clamped into the table, c). -/
theorem gaR_apply (h : FVec Ideal Cert.ReferenceIdeal.S50000x128 .f32) (idx : IVec Cert.ReferenceIdeal.S650000x1 32) (e : Fin 650000) (c : Fin 128) :
    Host.gather gaR h idx (ix2 e c)
      = h (ix2 (⟨min (idx (ix2 e (0 : Fin 1))).toInt.toNat 49999, by omega⟩ : Fin 50000) c) := by
  unfold Host.gather
  refine congrArg h (funext fun a => Fin.ext ?_)
  match a with
  | ⟨0, _⟩ =>
    show gaR.start (ix2 e c) idx (0 : Fin 2) + gaR.batchCoord (ix2 e c) (0 : Fin 2) + gaR.offCoord (ix2 e c) (0 : Fin 2)
      = min (idx (ix2 e (0 : Fin 1))).toInt.toNat 49999
    rw [GatherDims.batchCoord_eq_zero gaR (ix2 e c) (0 : Fin 2) (by decide),
      GatherDims.offCoord_eq_zero gaR (ix2 e c) (0 : Fin 2) (by decide)]
    simp only [Nat.add_zero]
    unfold GatherDims.start
    rw [dif_pos (show (0 : Fin 2) ∈ gaR.startIndexMap by decide)]
    have hsi : gaR.siIdx (ix2 e c) ⟨List.idxOf (0 : Fin 2) gaR.startIndexMap,
        List.idxOf_lt_length_iff.2 (show (0 : Fin 2) ∈ gaR.startIndexMap by decide)⟩ = ix2 e (0 : Fin 1) := by
      funext b; refine Fin.ext ?_
      match b with
      | ⟨0, _⟩ => rfl
      | ⟨1, _⟩ => rfl
    rw [hsi]
    rfl
  | ⟨1, _⟩ =>
    show gaR.start (ix2 e c) idx (1 : Fin 2) + gaR.batchCoord (ix2 e c) (1 : Fin 2) + gaR.offCoord (ix2 e c) (1 : Fin 2) = c.val
    rw [GatherDims.batchCoord_eq_zero gaR (ix2 e c) (1 : Fin 2) (by decide)]
    unfold GatherDims.start GatherDims.offCoord
    rw [dif_neg (show ¬(1 : Fin 2) ∈ gaR.startIndexMap by decide), dif_pos (show (1 : Fin 2) ∈ gaR.sKept by decide)]
    simp only [Nat.zero_add, Nat.add_zero]
    rfl

end Cert.Bridge

end
-- ==== Proof.ConvAlg.lean ====
/-
  One graph convolution computed two ways, equal on the extended reals.

  The reference multiplies the node features by ONE 128-column weight matrix, gathers the rows along the edges,
  scales each row by the edge's normalisation and sums the rows into the edges' targets. The kernel program multiplies
  by the TWO convolutions' weights side by side (256 columns), gathers, scales and sums 256-column rows, and then takes
  columns 0 … 127 (the first convolution) or 128 … 255 (the second). Column q of the wide product is column q of the
  first matrix's product, column 128 + q is column q of the second's; gathering, scaling by a number that does not
  depend on the column and summing over edges all act column by column. So entry (n, q) of either side is
  `0 + ∑ over edges e whose target is n of (x · w)(source of e, q) · norm e`: the same sum, term by term.
-/
import proofs.«176967_j76450417868973_1_alg».proof.Proof.ConvIdx
import proofs.«176967_j76450417868973_1_alg».proof.Proof.Spec
import Idealize.ShloMosaic.Lib.Pipeline.Value
import Idealize.ShloMosaic.PureOps.Ideal.Laws

noncomputable section

open scoped BigOperators

namespace Cert.Bridge

open Idealize.ShloMosaic Idealize.ShloMosaic.ValueIdx

/-- The reference's linear map: features `[50000, 128]` against weights `[128, 128]`. -/
abbrev dotR : DotDims Cert.ReferenceIdeal.S50000x128 Cert.ReferenceIdeal.S128x128 Cert.ReferenceIdeal.S50000x128 :=
  Cert.ReferenceIdeal.dot_S50000x128_S128x128_S50000x128_1_0_0_1_n_n

theorem dotR_l0 (i : Cert.ReferenceIdeal.S50000x128.Idx) (c : dotR.contr.Idx) : (dotR.lhsIdx i c 0).val = (i 0).val := by
  unfold DotDims.lhsIdx
  rw [dif_neg (show ¬(0 : Fin Cert.ReferenceIdeal.S50000x128.rank) ∈ dotR.lhsBatch by decide),
    dif_pos (show (0 : Fin Cert.ReferenceIdeal.S50000x128.rank) ∈ dotR.lhsNonContracting by decide)]
  rfl
theorem dotR_l1 (i : Cert.ReferenceIdeal.S50000x128.Idx) (c : dotR.contr.Idx) :
    (dotR.lhsIdx i c 1).val = (c ⟨0, by decide⟩).val := dotR.lhsIdx_val_of_single rfl i c
theorem dotR_r0 (i : Cert.ReferenceIdeal.S50000x128.Idx) (c : dotR.contr.Idx) :
    (dotR.rhsIdx i c 0).val = (c ⟨0, by decide⟩).val := dotR.rhsIdx_val_of_single rfl i c
theorem dotR_r1 (i : Cert.ReferenceIdeal.S50000x128.Idx) (c : dotR.contr.Idx) : (dotR.rhsIdx i c 1).val = (i 1).val := by
  unfold DotDims.rhsIdx
  rw [dif_neg (show ¬(1 : Fin Cert.ReferenceIdeal.S128x128.rank) ∈ dotR.rhsBatch by decide),
    dif_pos (show (1 : Fin Cert.ReferenceIdeal.S128x128.rank) ∈ dotR.rhsNonContracting by decide)]
  rfl

/-- The reference's linear map at (row p, column q): row p of the features against column q of the weights. -/
theorem dotR_apply (x : FVec Ideal Cert.ReferenceIdeal.S50000x128 .f32) (w : FVec Ideal Cert.ReferenceIdeal.S128x128 .f32)
    (p : Fin 50000) (q : Fin 128) :
    Host.dotGeneral dotR none x w (ix2 p q) = ∑ k : Fin 128, x (ix2 p k) * w (ix2 k q) := by
  simp only [Host.dotGeneral]
  rw [Ideal.dotGeneral_apply, ← Equiv.sum_comp (contrEquiv1 dotR 128 rfl rfl).symm]
  refine Finset.sum_congr rfl fun k _ => ?_
  have hk := contrEquiv1_symm_val dotR 128 rfl rfl k
  have el : dotR.lhsIdx (ix2 p q) ((contrEquiv1 dotR 128 rfl rfl).symm k) = ix2 p k :=
    funext fun d => Fin.ext (by
      match d with
      | ⟨0, _⟩ => exact dotR_l0 _ _
      | ⟨1, _⟩ => exact (dotR_l1 _ _).trans hk)
  have er : dotR.rhsIdx (ix2 p q) ((contrEquiv1 dotR 128 rfl rfl).symm k) = ix2 k q :=
    funext fun d => Fin.ext (by
      match d with
      | ⟨0, _⟩ => exact (dotR_r0 _ _).trans hk
      | ⟨1, _⟩ => exact dotR_r1 _ _)
  rw [el, er]

/-- The two weight matrices side by side, read in the left half: the first matrix. -/
theorem weights_left (w1 w2 : FVec Ideal Cert.KernelIdeal.S128x128 .f32) (k : Fin 128) (q : Fin 128) (hq : q.val < 256) :
    concatenate Cert.KernelIdeal.S128x256 1 [⟨Cert.KernelIdeal.S128x128, w1⟩, ⟨Cert.KernelIdeal.S128x128, w2⟩]
        Cert.KernelIdeal.Gen.concatenates_S128x128_S128x128_S128x256_d1 (ix2 k (⟨q.val, hq⟩ : Fin 256))
      = w1 (ix2 k q) :=
  concatenate_pair_apply_left (t := Cert.KernelIdeal.S128x256) (s₁ := Cert.KernelIdeal.S128x128) (s₂ := Cert.KernelIdeal.S128x128)
    (1 : Fin 2) w1 w2 Cert.KernelIdeal.Gen.concatenates_S128x128_S128x128_S128x256_d1 (ix2 k (⟨q.val, hq⟩ : Fin 256)) rfl (ix2 k q)
    (fun b => by
      match b with
      | ⟨0, _⟩ => rfl
      | ⟨1, _⟩ => rfl)

/-- The two weight matrices side by side, read in the right half: the second matrix, 128 columns to the left. -/
theorem weights_right (w1 w2 : FVec Ideal Cert.KernelIdeal.S128x128 .f32) (k : Fin 128) (q : Fin 128) (hq : q.val + 128 < 256) :
    concatenate Cert.KernelIdeal.S128x256 1 [⟨Cert.KernelIdeal.S128x128, w1⟩, ⟨Cert.KernelIdeal.S128x128, w2⟩]
        Cert.KernelIdeal.Gen.concatenates_S128x128_S128x128_S128x256_d1 (ix2 k (⟨q.val + 128, hq⟩ : Fin 256))
      = w2 (ix2 k q) :=
  concatenate_pair_apply_right (t := Cert.KernelIdeal.S128x256) (s₁ := Cert.KernelIdeal.S128x128) (s₂ := Cert.KernelIdeal.S128x128)
    (1 : Fin 2) w1 w2 Cert.KernelIdeal.Gen.concatenates_S128x128_S128x128_S128x256_d1 (ix2 k (⟨q.val + 128, hq⟩ : Fin 256)) rfl rfl (ix2 k q)
    (fun b hb => by
      match b with
      | ⟨0, _⟩ => rfl
      | ⟨1, _⟩ => exact absurd rfl hb)
    (show q.val + 128 = q.val + 128 from rfl)

/-- The table row a message reads: its source index word, read signed and clamped into the 50000 rows. -/
def srcRow (iS : IVec Cert.ReferenceIdeal.S650000x1 32) (e : Fin 650000) : Fin 50000 :=
  ⟨min (iS (ix2 e (0 : Fin 1))).toInt.toNat 49999, by omega⟩

/-- A normalisation column spread over 128 columns reads, at (e, q), the column's entry for message e. -/
theorem normR_apply (nb : FVec Ideal Cert.ReferenceIdeal.S650000x1 .f32) (e : Fin 650000) (q : Fin 128) :
    broadcastInDim Cert.ReferenceIdeal.S650000x128 ![0, 1] Cert.ReferenceIdeal.Gen.bcast_S650000x1_S650000x128_0_1 nb (ix2 e q)
      = nb (ix2 e (0 : Fin 1)) :=
  broadcastInDim_apply (s := Cert.ReferenceIdeal.S650000x1) (t := Cert.ReferenceIdeal.S650000x128) ![0, 1]
    Cert.ReferenceIdeal.Gen.bcast_S650000x1_S650000x128_0_1 nb (ix2 e q) (ix2 e (0 : Fin 1)) (fun a => by
      match a with
      | ⟨0, _⟩ => rfl
      | ⟨1, _⟩ => rfl)

/-- The same column spread over 256 columns. -/
theorem normK_apply (nb : FVec Ideal Cert.KernelIdeal.S650000x1 .f32) (e : Fin 650000) (q : Fin 256) :
    broadcastInDim Cert.KernelIdeal.S650000x256 ![0, 1] Cert.KernelIdeal.Gen.bcast_S650000x1_S650000x256_0_1 nb (ix2 e q)
      = nb (ix2 e (0 : Fin 1)) :=
  broadcastInDim_apply (s := Cert.KernelIdeal.S650000x1) (t := Cert.KernelIdeal.S650000x256) ![0, 1]
    Cert.KernelIdeal.Gen.bcast_S650000x1_S650000x256_0_1 nb (ix2 e q) (ix2 e (0 : Fin 1)) (fun a => by
      match a with
      | ⟨0, _⟩ => rfl
      | ⟨1, _⟩ => rfl)

/-- The reference's message (e, q): row `srcRow e` of `x` against column q of `w`, times the message's normalisation. -/
theorem msgR_apply (x : FVec Ideal Cert.ReferenceIdeal.S50000x128 .f32) (w : FVec Ideal Cert.ReferenceIdeal.S128x128 .f32)
    (iS : IVec Cert.ReferenceIdeal.S650000x1 32) (nb : FVec Ideal Cert.ReferenceIdeal.S650000x1 .f32) (e : Fin 650000) (q : Fin 128) :
    mulf (Host.gather gaR (Host.dotGeneral dotR none x w) iS)
        (broadcastInDim Cert.ReferenceIdeal.S650000x128 ![0, 1] Cert.ReferenceIdeal.Gen.bcast_S650000x1_S650000x128_0_1 nb) (ix2 e q)
      = (∑ k : Fin 128, x (ix2 (srcRow iS e) k) * w (ix2 k q)) * nb (ix2 e (0 : Fin 1)) := by
  rw [mulf_apply, gaR_apply, normR_apply]
  exact congrArg (· * nb (ix2 e (0 : Fin 1))) (dotR_apply x w (srcRow iS e) q)

/-- The wide product at (row p, column c): row p of `x` against column c of the two matrices side by side. -/
theorem wide_apply (x : FVec Ideal Cert.KernelIdeal.S50000x128 .f32) (w : FVec Ideal Cert.KernelIdeal.S128x256 .f32)
    (p : Fin 50000) (c : Fin 256) : Cert.Spec.proj x w (ix2 p c) = ∑ k : Fin 128, x (ix2 p k) * w (ix2 k c) := rfl

/-- The kernel program's message (e, c) on the 256 columns. -/
theorem msgK_apply (x : FVec Ideal Cert.KernelIdeal.S50000x128 .f32) (w : FVec Ideal Cert.KernelIdeal.S128x256 .f32)
    (iS : IVec Cert.KernelIdeal.S650000x1 32) (nb : FVec Ideal Cert.KernelIdeal.S650000x1 .f32) (e : Fin 650000) (c : Fin 256) :
    mulf (Host.gather gaK (Cert.Spec.proj x w) iS)
        (broadcastInDim Cert.KernelIdeal.S650000x256 ![0, 1] Cert.KernelIdeal.Gen.bcast_S650000x1_S650000x256_0_1 nb) (ix2 e c)
      = (∑ k : Fin 128, x (ix2 (srcRow iS e) k) * w (ix2 k c)) * nb (ix2 e (0 : Fin 1)) := by
  rw [mulf_apply, gaK_apply, normK_apply]
  exact congrArg (· * nb (ix2 e (0 : Fin 1))) (wide_apply x w (srcRow iS e) c)

/-- Columns 0 … 127 of a 256-column array. -/
theorem left_half_apply (X : FVec Ideal Cert.KernelIdeal.S50000x256 .f32) (n : Fin 50000) (q : Fin 128) (hq : q.val < 256) :
    extractStridedSlice Cert.KernelIdeal.S50000x128 ![0, 0] X Cert.KernelIdeal.Gen.slices_S50000x256_S50000x128_0_0 (ix2 n q)
      = X (ix2 n (⟨q.val, hq⟩ : Fin 256)) :=
  extractStridedSlice_apply (s := Cert.KernelIdeal.S50000x256) (t := Cert.KernelIdeal.S50000x128) ![0, 0] X
    Cert.KernelIdeal.Gen.slices_S50000x256_S50000x128_0_0 (ix2 n q) (ix2 n (⟨q.val, hq⟩ : Fin 256)) (fun a => by
      match a with
      | ⟨0, _⟩ => show n.val = 0 + n.val; omega
      | ⟨1, _⟩ => show q.val = 0 + q.val; omega)

/-- Columns 128 … 255 of a 256-column array. -/
theorem right_half_apply (X : FVec Ideal Cert.KernelIdeal.S50000x256 .f32) (n : Fin 50000) (q : Fin 128) (hq : q.val + 128 < 256) :
    extractStridedSlice Cert.KernelIdeal.S50000x128 ![0, 128] X Cert.KernelIdeal.Gen.slices_S50000x256_S50000x128_0_128 (ix2 n q)
      = X (ix2 n (⟨q.val + 128, hq⟩ : Fin 256)) :=
  extractStridedSlice_apply (s := Cert.KernelIdeal.S50000x256) (t := Cert.KernelIdeal.S50000x128) ![0, 128] X
    Cert.KernelIdeal.Gen.slices_S50000x256_S50000x128_0_128 (ix2 n q) (ix2 n (⟨q.val + 128, hq⟩ : Fin 256)) (fun a => by
      match a with
      | ⟨0, _⟩ => show n.val = 0 + n.val; omega
      | ⟨1, _⟩ => show q.val + 128 = 128 + q.val; omega)

/-- The all-zero table a scatter-add starts from reads zero's word everywhere, at either width. -/
theorem zerosR_apply (i : Cert.ReferenceIdeal.S50000x128.Idx) :
    broadcastInDim Cert.ReferenceIdeal.S50000x128 ![] Cert.ReferenceIdeal.Gen.bcast_S_S50000x128
      (constant (F := Ideal) Cert.ReferenceIdeal.S_ .f32 0x00000000#32) i = Cert.Spec.zero := rfl
theorem zerosK_apply (i : Cert.KernelIdeal.S50000x256.Idx) :
    broadcastInDim Cert.KernelIdeal.S50000x256 ![] Cert.KernelIdeal.Gen.bcast_S_S50000x256
      (constant (F := Ideal) Cert.KernelIdeal.S_ .f32 0x00000000#32) i = Cert.Spec.zero := rfl

set_option maxHeartbeats 2000000 in
/-- THE FIRST CONVOLUTION: the reference's message passing of `x · w1` is the left half of the kernel program's
    message passing of `x · [w1 | w2]`. -/
theorem conv_ref_s (x : FVec Ideal Cert.ReferenceIdeal.S50000x128 .f32) (w1 w2 : FVec Ideal Cert.ReferenceIdeal.S128x128 .f32)
    (iD iS : IVec Cert.ReferenceIdeal.S650000x1 32) (nb : FVec Ideal Cert.ReferenceIdeal.S650000x1 .f32) :
    Host.scatterAdd Cert.ReferenceIdeal.scatter_S50000x128_S650000x1_S650000x128_1_0_0_1
        (broadcastInDim Cert.ReferenceIdeal.S50000x128 ![] Cert.ReferenceIdeal.Gen.bcast_S_S50000x128 (constant (F := Ideal) Cert.ReferenceIdeal.S_ .f32 0x00000000#32))
        iD
        (mulf (Host.gather Cert.ReferenceIdeal.gather_S50000x128_S650000x1_S650000x128_1_0_n_n_0_1_1128
            (Host.dotGeneral Cert.ReferenceIdeal.dot_S50000x128_S128x128_S50000x128_1_0_0_1_n_n none x w1) iS)
          (broadcastInDim Cert.ReferenceIdeal.S650000x128 ![0, 1] Cert.ReferenceIdeal.Gen.bcast_S650000x1_S650000x128_0_1 nb))
      = extractStridedSlice Cert.KernelIdeal.S50000x128 ![0, 0]
          (Host.scatterAdd Cert.KernelIdeal.scatter_S50000x256_S650000x1_S650000x256_1_0_0_1
            (broadcastInDim Cert.KernelIdeal.S50000x256 ![] Cert.KernelIdeal.Gen.bcast_S_S50000x256 (constant (F := Ideal) Cert.KernelIdeal.S_ .f32 0x00000000#32))
            iD
            (mulf (Host.gather Cert.KernelIdeal.gather_S50000x256_S650000x1_S650000x256_1_0_n_n_0_1_1256
                (Cert.Spec.proj x (concatenate Cert.KernelIdeal.S128x256 1 [⟨Cert.KernelIdeal.S128x128, w1⟩, ⟨Cert.KernelIdeal.S128x128, w2⟩] Cert.KernelIdeal.Gen.concatenates_S128x128_S128x128_S128x256_d1)) iS)
              (broadcastInDim Cert.KernelIdeal.S650000x256 ![0, 1] Cert.KernelIdeal.Gen.bcast_S650000x1_S650000x256_0_1 nb)))
          Cert.KernelIdeal.Gen.slices_S50000x256_S50000x128_0_0 := by
  funext i
  obtain ⟨n, q, rfl⟩ : ∃ (n : Fin 50000) (q : Fin 128), i = ix2 n q := ⟨i 0, i 1, eq_ix2 i⟩
  have hq : q.val < 256 := by omega
  refine Eq.trans ?_ (left_half_apply _ n q hq).symm
  refine (scR_apply _ iD _ n q).trans (Eq.trans ?_ (scK_apply _ iD _ n ⟨q.val, hq⟩).symm)
  rw [zerosR_apply, zerosK_apply]
  refine congrArg (Cert.Spec.zero + ·) (Finset.sum_congr rfl fun e _ => ?_)
  by_cases hI : (iD (ix2 e (0 : Fin 1))).toInt = (n.val : ℤ)
  · rw [if_pos hI, if_pos hI]
    refine (msgR_apply x w1 iS nb e q).trans (Eq.trans ?_ (msgK_apply x _ iS nb e ⟨q.val, hq⟩).symm)
    refine congrArg (· * nb (ix2 e (0 : Fin 1))) (Finset.sum_congr rfl fun k _ => ?_)
    exact congrArg (x (ix2 (srcRow iS e) k) * ·) (weights_left w1 w2 k q hq).symm
  · rw [if_neg hI, if_neg hI]

set_option maxHeartbeats 2000000 in
/-- THE SECOND CONVOLUTION: the reference's message passing of `x · w2` is the right half. -/
theorem conv_ref_d (x : FVec Ideal Cert.ReferenceIdeal.S50000x128 .f32) (w1 w2 : FVec Ideal Cert.ReferenceIdeal.S128x128 .f32)
    (iD iS : IVec Cert.ReferenceIdeal.S650000x1 32) (nb : FVec Ideal Cert.ReferenceIdeal.S650000x1 .f32) :
    Host.scatterAdd Cert.ReferenceIdeal.scatter_S50000x128_S650000x1_S650000x128_1_0_0_1
        (broadcastInDim Cert.ReferenceIdeal.S50000x128 ![] Cert.ReferenceIdeal.Gen.bcast_S_S50000x128 (constant (F := Ideal) Cert.ReferenceIdeal.S_ .f32 0x00000000#32))
        iD
        (mulf (Host.gather Cert.ReferenceIdeal.gather_S50000x128_S650000x1_S650000x128_1_0_n_n_0_1_1128
            (Host.dotGeneral Cert.ReferenceIdeal.dot_S50000x128_S128x128_S50000x128_1_0_0_1_n_n none x w2) iS)
          (broadcastInDim Cert.ReferenceIdeal.S650000x128 ![0, 1] Cert.ReferenceIdeal.Gen.bcast_S650000x1_S650000x128_0_1 nb))
      = extractStridedSlice Cert.KernelIdeal.S50000x128 ![0, 128]
          (Host.scatterAdd Cert.KernelIdeal.scatter_S50000x256_S650000x1_S650000x256_1_0_0_1
            (broadcastInDim Cert.KernelIdeal.S50000x256 ![] Cert.KernelIdeal.Gen.bcast_S_S50000x256 (constant (F := Ideal) Cert.KernelIdeal.S_ .f32 0x00000000#32))
            iD
            (mulf (Host.gather Cert.KernelIdeal.gather_S50000x256_S650000x1_S650000x256_1_0_n_n_0_1_1256
                (Cert.Spec.proj x (concatenate Cert.KernelIdeal.S128x256 1 [⟨Cert.KernelIdeal.S128x128, w1⟩, ⟨Cert.KernelIdeal.S128x128, w2⟩] Cert.KernelIdeal.Gen.concatenates_S128x128_S128x128_S128x256_d1)) iS)
              (broadcastInDim Cert.KernelIdeal.S650000x256 ![0, 1] Cert.KernelIdeal.Gen.bcast_S650000x1_S650000x256_0_1 nb)))
          Cert.KernelIdeal.Gen.slices_S50000x256_S50000x128_0_128 := by
  funext i
  obtain ⟨n, q, rfl⟩ : ∃ (n : Fin 50000) (q : Fin 128), i = ix2 n q := ⟨i 0, i 1, eq_ix2 i⟩
  have hq : q.val + 128 < 256 := by omega
  refine Eq.trans ?_ (right_half_apply _ n q hq).symm
  refine (scR_apply _ iD _ n q).trans (Eq.trans ?_ (scK_apply _ iD _ n ⟨q.val + 128, hq⟩).symm)
  rw [zerosR_apply, zerosK_apply]
  refine congrArg (Cert.Spec.zero + ·) (Finset.sum_congr rfl fun e _ => ?_)
  by_cases hI : (iD (ix2 e (0 : Fin 1))).toInt = (n.val : ℤ)
  · rw [if_pos hI, if_pos hI]
    refine (msgR_apply x w2 iS nb e q).trans (Eq.trans ?_ (msgK_apply x _ iS nb e ⟨q.val + 128, hq⟩).symm)
    refine congrArg (· * nb (ix2 e (0 : Fin 1))) (Finset.sum_congr rfl fun k _ => ?_)
    exact congrArg (x (ix2 (srcRow iS e) k) * ·) (weights_right w1 w2 k q hq).symm
  · rw [if_neg hI, if_neg hI]

end Cert.Bridge

end
-- ==== Proof.RefValue.lean ====
/-
  The reference's result is the closed form of its arguments. Its composed term is, from the outside in: the head
  (over the pooled sums and the node counts), the fusion layer (over the two convolutions' outputs, each occurring
  three times: itself, in the product and in the difference), and the two convolutions. The head and the fusion layer
  are rewritten to the specification's, each convolution to its half of the 256-column message passing; what is left
  on both sides is the same host operations on the same arguments, spelt with the two programs' own constants.
-/
import proofs.«176967_j76450417868973_1_alg».proof.Proof.RefRun
import proofs.«176967_j76450417868973_1_alg».proof.Proof.HeadAlg
import proofs.«176967_j76450417868973_1_alg».proof.Proof.FuseAlg
import proofs.«176967_j76450417868973_1_alg».proof.Proof.ConvAlg
import proofs.«176967_j76450417868973_1_alg».proof.Proof.Closed

set_option maxRecDepth 16384

noncomputable section

namespace Cert.Bridge

open Idealize.ShloMosaic Idealize.ShloMosaic.TcCoe Idealize.SL.Sem

set_option maxHeartbeats 4000000 in
/-- The reference run's result term, at extended reals, is the closed form of the thirteen argument arrays. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v121 (F := Ideal) m c
      = Cert.Closed.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) := by
  unfold Cert.ReferenceIdeal.ValueP.res_main_v121
  rw [head_ref, fuse_ref, conv_ref_s _ _ (m ((c.tc : Thread Cert.ReferenceIdeal.nD Cert.ReferenceIdeal.τ).loc Cert.ReferenceIdeal.main_arg5)), conv_ref_d _ (m ((c.tc : Thread Cert.ReferenceIdeal.nD Cert.ReferenceIdeal.τ).loc Cert.ReferenceIdeal.main_arg3)) _]
  rfl

end Cert.Bridge

end
-- ==== Proof.lean ====
/-
  The certificate of a two-convolution graph network with a fusion layer, graph mean pooling and a two-layer head:
  a kernel program of three pipelined regions among host operations (gather, scatter-add) against a plain reference.

  Frames. The two printed kernel programs' frames are the generated ones; the reference has no kernel, and its frame
  is its run with the result dropped.
  Preserves. The idealization rewrote no operation: there is nothing to state.
  Algebraic. On the extended reals both programs end with the result buffer at ONE function of the thirteen argument
  arrays (`Cert.Closed.result`): the kernel program because each region's output array is the specification's
  whole-array function of its inputs and the host operations between the regions are that function's other stages; the
  reference because its head and fusion layer are the specification's (a 512-term contraction over a concatenation is
  the sum of four 128-term contractions; sums on the extended reals may be regrouped freely), and each of its two
  128-column message passings is one half of the kernel program's 256-column one. No finiteness is needed: the only
  laws used are commutativity and associativity of addition and the reindexing of sums.
-/
import proofs.«176967_j76450417868973_1_alg».proof.Defs
import proofs.«176967_j76450417868973_1_alg».proof.Proof.Gen.Kernel
import proofs.«176967_j76450417868973_1_alg».proof.Proof.Gen.Kernel.Skeleton
import proofs.«176967_j76450417868973_1_alg».proof.Proof.Gen.Kernel.Launch
import proofs.«176967_j76450417868973_1_alg».proof.Proof.Gen.Kernel.Points
import proofs.«176967_j76450417868973_1_alg».proof.Proof.Gen.Kernel.Frame
import proofs.«176967_j76450417868973_1_alg».proof.Proof.Gen.KernelIdeal
import proofs.«176967_j76450417868973_1_alg».proof.Proof.Gen.KernelIdeal.Skeleton
import proofs.«176967_j76450417868973_1_alg».proof.Proof.Gen.KernelIdeal.Launch
import proofs.«176967_j76450417868973_1_alg».proof.Proof.Gen.KernelIdeal.Points
import proofs.«176967_j76450417868973_1_alg».proof.Proof.Gen.KernelIdeal.Frame
import proofs.«176967_j76450417868973_1_alg».proof.Proof.Gen.ReferenceIdeal
import proofs.«176967_j76450417868973_1_alg».proof.Proof.Gen.Pre_finite_inputs
import proofs.«176967_j76450417868973_1_alg».proof.Proof.KernelRun
import proofs.«176967_j76450417868973_1_alg».proof.Proof.KernelValue
import proofs.«176967_j76450417868973_1_alg».proof.Proof.RefRun
import proofs.«176967_j76450417868973_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the closed form of the (agreeing) arguments. -/
theorem algebraic : Cert.algebraic_KernelIdeal_ReferenceIdeal := by
  intro m ρ m' ρ' _ hagree
  refine ⟨fun c => Cert.Closed.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.ValueK.kernel_value m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Bridge.ref_value m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
